-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S32x32 .f32) (main_arg5 : FVec F S32 .f32) (main_arg6 : FVec F S32x16 .f32) (main_arg7 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32x32 .f32) (main_arg5 : FVec F S32 .f32) (main_arg6 : FVec F S32x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x32 : Shape := ⟨2, ![1, 32]⟩
abbrev S10000x32 : Shape := ⟨2, ![10000, 32]⟩
abbrev S400x10000 : Shape := ⟨2, ![400, 10000]⟩
abbrev S400x32 : Shape := ⟨2, ![400, 32]⟩
abbrev S10000x16 : Shape := ⟨2, ![10000, 16]⟩
abbrev S1000x10000 : Shape := ⟨2, ![1000, 10000]⟩
abbrev S1000x16 : Shape := ⟨2, ![1000, 16]⟩
abbrev S1000x32 : Shape := ⟨2, ![1000, 32]⟩
abbrev S1x16 : Shape := ⟨2, ![1, 16]⟩
abbrev S1000 : Shape := ⟨1, ![1000]⟩
abbrev S1000x1 : Shape := ⟨2, ![1000, 1]⟩

abbrev nBuf : Space → Nat
  | .hbm => 15
  | .vmem => 24
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x32, .f32⟩
  | .hbm, ⟨9, _⟩ => ⟨S10000x10000, .bf16⟩
  | .hbm, ⟨10, _⟩ => ⟨S10000x32, .bf16⟩
  | .hbm, ⟨11, _⟩ => ⟨S1x32, .f32⟩
  | .hbm, ⟨12, _⟩ => ⟨S10000x16, .bf16⟩
  | .hbm, ⟨13, _⟩ => ⟨S1x16, .f32⟩
  | .hbm, ⟨14, _⟩ => ⟨S10000x16, .f32⟩
  | .local _ .vmem, ⟨0, _⟩ => ⟨S10000x128, .f32⟩
  | .local _ .vmem, ⟨1, _⟩ => ⟨S128x32, .f32⟩
  | .local _ .vmem, ⟨2, _⟩ => ⟨S400x10000, .f32⟩
  | .local _ .vmem, ⟨3, _⟩ => ⟨S400x10000, .f32⟩
  | .local _ .vmem, ⟨4, _⟩ => ⟨S1x32, .f32⟩
  | .local _ .vmem, ⟨5, _⟩ => ⟨S32x32, .f32⟩
  | .local _ .vmem, ⟨6, _⟩ => ⟨S400x10000, .bf16⟩
  | .local _ .vmem, ⟨7, _⟩ => ⟨S400x10000, .bf16⟩
  | .local _ .vmem, ⟨8, _⟩ => ⟨S400x32, .bf16⟩
  | .local _ .vmem, ⟨9, _⟩ => ⟨S400x32, .bf16⟩
  | .local _ .vmem, ⟨10, _⟩ => ⟨S10000x32, .bf16⟩
  | .local _ .vmem, ⟨11, _⟩ => ⟨S1000x10000, .bf16⟩
  | .local _ .vmem, ⟨12, _⟩ => ⟨S1000x10000, .bf16⟩
  | .local _ .vmem, ⟨13, _⟩ => ⟨S10000x32, .bf16⟩
  | .local _ .vmem, ⟨14, _⟩ => ⟨S1x32, .f32⟩
  | .local _ .vmem, ⟨15, _⟩ => ⟨S32x16, .f32⟩
  | .local _ .vmem, ⟨16, _⟩ => ⟨S1000x16, .bf16⟩
  | .local _ .vmem, ⟨17, _⟩ => ⟨S1000x16, .bf16⟩
  | .local _ .vmem, ⟨18, _⟩ => ⟨S1000x10000, .bf16⟩
  | .local _ .vmem, ⟨19, _⟩ => ⟨S1000x10000, .bf16⟩
  | .local _ .vmem, ⟨20, _⟩ => ⟨S10000x16, .bf16⟩
  | .local _ .vmem, ⟨21, _⟩ => ⟨S1x16, .f32⟩
  | .local _ .vmem, ⟨22, _⟩ => ⟨S1000x16, .f32⟩
  | .local _ .vmem, ⟨23, _⟩ => ⟨S1000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x32 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x16 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  bitsLt_bf16_f32 : FTy.bits .bf16 < FTy.bits .f32
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  packedbf16_S10000x32_S10000x32_0_0 : (Rect.unit (s := S10000x32) ![0, 0] S10000x32.size inb_S10000x32_S10000x32_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S32x32_S32x32_0_0 : ∀ a, (![0, 0] : Fin 2 → Nat) a + S32x32.size a ≤ S32x32.size a
  h_S32x32 : 0 < S32x32.numel
  inb_S400x32_S400x32_0_0 : ∀ a, (![0, 0] : Fin 2 → Nat) a + S400x32.size a ≤ S400x32.size a
  h_S400x32 : 0 < S400x32.numel
  packedbf16_S400x32_S400x32_0_0 : (Rect.unit (s := S400x32) ![0, 0] S400x32.size inb_S400x32_S400x32_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x32_S1000x32 : S1x32.Broadcasts S1000x32
  inb_S32x16_S32x16_0_0 : ∀ a, (![0, 0] : Fin 2 → Nat) a + S32x16.size a ≤ S32x16.size a
  h_S32x16 : 0 < S32x16.numel
  inb_S1000x16_S1000x16_0_0 : ∀ a, (![0, 0] : Fin 2 → Nat) a + S1000x16.size a ≤ S1000x16.size a
  h_S1000x16 : 0 < S1000x16.numel
  packedbf16_S1000x16_S1000x16_0_0 : (Rect.unit (s := S1000x16) ![0, 0] S1000x16.size inb_S1000x16_S1000x16_0_0).PackedRows (EltTy.packing .bf16)
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1000x16 : S1x16.Broadcasts S1000x16
  reduces_S1000x16_S1000 : S1000x16.Reduces [1] S1000
  shapeCasts_S1000_S1000x1 : S1000.ShapeCasts S1000x1
  broadcasts_S1000x1_S1000x16 : S1000x1.Broadcasts S1000x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S1000x10000_S10000x32_S1000x32_1_0_0_1_n_n_wf : DotDims.WF S1000x10000 S10000x32 S1000x32 [1] [0] [0] [1] [] []
  dot_S1000x32_S32x16_S1000x16_1_0_0_1_n_n_wf : DotDims.WF S1000x32 S32x16 S1000x16 [1] [0] [0] [1] [] []
  dot_S1000x10000_S10000x16_S1000x16_1_0_0_1_n_n_wf : DotDims.WF S1000x10000 S10000x16 S1000x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x32.size a ≤ S10000x32.size a
  hwx0_6 : ∀ i : grid0.Coords, EltTy.bits .bf16 = 32 ∨ (Rect.block (s := S10000x32) S400x32.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x10000.size a ≤ S10000x10000.size a
  hwx1_0 : ∀ i : grid1.Coords, EltTy.bits .bf16 = 32 ∨ (Rect.block (s := S10000x10000) S1000x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S10000x32.size a
  hwx1_1 : ∀ i : grid1.Coords, EltTy.bits .bf16 = 32 ∨ (Rect.block (s := S10000x32) S10000x32.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x16.size a ≤ S10000x16.size a
  hwx1_4 : ∀ i : grid1.Coords, EltTy.bits .bf16 = 32 ∨ (Rect.block (s := S10000x16) S1000x16.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .bf16 = 32 ∨ (Rect.block (s := S10000x16) S10000x16.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x16.size a ≤ S10000x16.size a
  hwx2_3 : ∀ i : grid2.Coords, EltTy.bits .f32 = 32 ∨ (Rect.block (s := S10000x16) S1000x16.size (cc2_transform_3 i) (hinb2_3 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S1000x10000_S10000x32_S1000x32_1_0_0_1_n_n : DotDims S1000x10000 S10000x32 S1000x32 where
  lhsContracting := [1]
  rhsContracting := [0]
  lhsNonContracting := [0]
  rhsNonContracting := [1]
  lhsBatch := []
  rhsBatch := []
  wf := dot_S1000x10000_S10000x32_S1000x32_1_0_0_1_n_n_wf
def dot_S1000x32_S32x16_S1000x16_1_0_0_1_n_n : DotDims S1000x32 S32x16 S1000x16 where
  lhsContracting := [1]
  rhsContracting := [0]
  lhsNonContracting := [0]
  rhsNonContracting := [1]
  lhsBatch := []
  rhsBatch := []
  wf := dot_S1000x32_S32x16_S1000x16_1_0_0_1_n_n_wf
def dot_S1000x10000_S10000x16_S1000x16_1_0_0_1_n_n : DotDims S1000x10000 S10000x16 S1000x16 where
  lhsContracting := [1]
  rhsContracting := [0]
  lhsNonContracting := [0]
  rhsNonContracting := [1]
  lhsBatch := []
  rhsBatch := []
  wf := dot_S1000x10000_S10000x16_S1000x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S400x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1_0) S1000x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S10000x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v1_0) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S10000x32 : Shape := ⟨2, ![10000, 32]⟩
abbrev S1x32 : Shape := ⟨2, ![1, 32]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S10000x32, .f32⟩
  | .hbm, ⟨9, _⟩ => ⟨S10000x32, .f32⟩
  | .hbm, ⟨10, _⟩ => ⟨S1x32, .f32⟩
  | .hbm, ⟨11, _⟩ => ⟨S10000x32, .f32⟩
  | .hbm, ⟨12, _⟩ => ⟨S10000x32, .f32⟩
  | .hbm, ⟨13, _⟩ => ⟨S_, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S10000x16, .f32⟩
  | .hbm, ⟨25, _⟩ => ⟨S10000x16, .f32⟩
  | .hbm, ⟨26, _⟩ => ⟨S1x16, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x16, .f32⟩
  | .hbm, ⟨36, _⟩ => ⟨S10000x16, .f32⟩
  | .hbm, ⟨37, _⟩ => ⟨S10000x16, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x16, .f32⟩
  | .hbm, ⟨43, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x32_S10000x32_1_0_0_1_n_n_wf : DotDims.WF S10000x32 S32x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Kernel.Body0.lean ====
/-
  The first layer's kernel body as two separation-logic triples, for any float instance.

  The body takes the whole feature matrix and first weight matrix, a 400-row block of the adjacency, the bias row and the
  second weight matrix, two output blocks, and a scratch buffer it keeps between grid points. At the grid's first point it
  first stores the product of the features with the first weights into the scratch; at every point it then stores the
  adjacency block (in the narrower format) into the first output block, and the layer's value of the adjacency block, the
  scratch's contents, the bias and the second weights into the second output block. Every load and store is of a whole
  block at zero offsets, so a store leaves its payload and a load reads the contents.
-/
import proofs.«141298_g11441792876995_week1_w4_521_5_alg».proof.Proof.Gen.Kernel.Launch
import proofs.«141298_g11441792876995_week1_w4_521_5_alg».proof.Proof.Gen.Kernel.Skeleton
import proofs.«141298_g11441792876995_week1_w4_521_5_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a matrix, as the constant function. -/
theorem hz2 : (![0, 0] : Fin 2 → ℕ) = fun _ => 0 := by funext a; fin_cases a <;> rfl

/-- The body's one condition, as the printed scalar chain of the grid coordinate: it is at the first point. -/
abbrev cond0 (i : grid0.Coords) : Prop :=
  (Scalar.cmpi .ne (Scalar.extui (Scalar.cmpi .eq (BitVec.ofNat 32 (i 0).val) 0#32)) 0#32) = 1#1

/-- It holds at the first grid point and at no other: decided over the 25 points. -/
theorem hcond0 : ∀ t : Fin cfg0.N, cond0 (grid0.coords t) ↔ t.val = 0 :=
  (by decide +kernel : ∀ t : Fin grid0.N, cond0 (grid0.coords t) ↔ t.val = 0)

theorem cover0_6 (p0 : Vec F S400x10000 .bf16) (y : S400x10000.Idx) :
    ∃ pc ∈ ([⟨Rect.unit (s := S400x10000) ![0, 0] S400x10000.size inb_S400x10000_S400x10000_0_0, p0⟩] : List (View.Piece (Elt F) S400x10000 .bf16)), y ∈ pc.1.set :=
  ⟨_, List.mem_singleton_self _, View.mem_set_unit_zero (S := S400x10000) hz2 inb_S400x10000_S400x10000_0_0 y⟩
theorem cover0_7 (p0 : Vec F S400x32 .bf16) (y : S400x32.Idx) :
    ∃ pc ∈ ([⟨Rect.unit (s := S400x32) ![0, 0] S400x32.size inb_S400x32_S400x32_0_0, p0⟩] : List (View.Piece (Elt F) S400x32 .bf16)), y ∈ pc.1.set :=
  ⟨_, List.mem_singleton_self _, View.mem_set_unit_zero (S := S400x32) hz2 inb_S400x32_S400x32_0_0 y⟩
theorem cover0_8 (p0 : Vec F S10000x32 .bf16) (y : S10000x32.Idx) :
    ∃ pc ∈ ([⟨Rect.unit (s := S10000x32) ![0, 0] S10000x32.size inb_S10000x32_S10000x32_0_0, p0⟩] : List (View.Piece (Elt F) S10000x32 .bf16)), y ∈ pc.1.set :=
  ⟨_, List.mem_singleton_self _, View.mem_set_unit_zero (S := S10000x32) hz2 inb_S10000x32_S10000x32_0_0 y⟩

set_option maxHeartbeats 4000000 in
/-- At the first point: the scratch, at anything before, ends at the product of the features and the first weights, and
    the second output block is computed from that product. -/
theorem sound_kernel0_first (c : Dev nD) (E : Set ℕ) (i : grid0.Coords) (hc : cond0 i)
    (arg1 : Memref sig .tc .vmem S10000x128 .f32) (harg1 : arg1.IsWhole) (arg2 : Memref sig .tc .vmem S128x32 .f32) (harg2 : arg2.IsWhole)
    (arg3 : Memref sig .tc .vmem S400x10000 .f32) (harg3 : arg3.IsWhole) (arg4 : Memref sig .tc .vmem S1x32 .f32) (harg4 : arg4.IsWhole)
    (arg5 : Memref sig .tc .vmem S32x32 .f32) (harg5 : arg5.IsWhole) (arg6 : Memref sig .tc .vmem S400x10000 .bf16) (harg6 : arg6.IsWhole)
    (arg7 : Memref sig .tc .vmem S400x32 .bf16) (harg7 : arg7.IsWhole) (arg8 : Memref sig .tc .vmem S10000x32 .bf16) (harg8 : arg8.IsWhole)
    (x0 : Vec F S10000x128 .f32) (x1 : Vec F S128x32 .f32) (x2 : Vec F S400x10000 .f32) (x3 : Vec F S1x32 .f32) (x4 : Vec F S32x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2) ∗ owns (c : Thread nD τ) arg7 fullShare (k0_pay3 x2 (k0_pay1 x0 x1) x3 x4)
            ∗ owns (c : Thread nD τ) arg8 fullShare (k0_pay1 x0 x1)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_unfold_run_names
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_6 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]
  isplitl [H6]
  · iexists _; isplitr
    swap; · iexact H6
    ipureintro
    refine (View.read_writes_eq_canon _ _ _ (cover0_7 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2, View.readCov_unit_zero (S := S10000x32) arg8.view hz2]
  iexists _; isplitr
  swap; · iexact H7
  ipureintro
  refine (View.read_writes_eq_canon _ _ _ (cover0_8 _)).trans ((View.canon_unit_zero hz2 _ _).trans ?_)
  simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]

set_option maxHeartbeats 4000000 in
/-- At any later point: the scratch is read and handed back as it was, and the second output block is computed from it. -/
theorem sound_kernel0_rest (c : Dev nD) (E : Set ℕ) (i : grid0.Coords) (hc : ¬cond0 i)
    (arg1 : Memref sig .tc .vmem S10000x128 .f32) (harg1 : arg1.IsWhole) (arg2 : Memref sig .tc .vmem S128x32 .f32) (harg2 : arg2.IsWhole)
    (arg3 : Memref sig .tc .vmem S400x10000 .f32) (harg3 : arg3.IsWhole) (arg4 : Memref sig .tc .vmem S1x32 .f32) (harg4 : arg4.IsWhole)
    (arg5 : Memref sig .tc .vmem S32x32 .f32) (harg5 : arg5.IsWhole) (arg6 : Memref sig .tc .vmem S400x10000 .bf16) (harg6 : arg6.IsWhole)
    (arg7 : Memref sig .tc .vmem S400x32 .bf16) (harg7 : arg7.IsWhole) (arg8 : Memref sig .tc .vmem S10000x32 .bf16) (harg8 : arg8.IsWhole)
    (x0 : Vec F S10000x128 .f32) (x1 : Vec F S128x32 .f32) (x2 : Vec F S400x10000 .f32) (x3 : Vec F S1x32 .f32) (x4 : Vec F S32x32 .f32)
    (xs : Vec F S10000x32 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2) ∗ owns (c : Thread nD τ) arg7 fullShare (k0_pay3 x2 xs x3 x4)
            ∗ owns (c : Thread nD τ) arg8 fullShare xs) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_6 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]
  isplitl [H6]
  · iexists _; isplitr
    swap; · iexact H6
    ipureintro
    refine (View.read_writes_eq_canon _ _ _ (cover0_7 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]
  iexists f7; isplitr; · ipureintro; rfl
  iexact H7

end Cert.Kernel.Hand

end
-- ==== Proof.Kernel.Body1.lean ====
/-
  The second layer's kernel body as a separation-logic triple, for any float instance.

  The body reads its four operand blocks whole (a 1000-row block of the adjacency, every node's features, the bias row, the
  weight matrix) and overwrites its output block whole with one stored value. So from the operands' buffers at read
  contents and the output's buffer at anything it runs to the operands unchanged and the output at that value of the
  operands: a whole-block store at zero offsets leaves exactly its payload, and a whole-block load reads the contents.
-/
import proofs.«141298_g11441792876995_week1_w4_521_5_alg».proof.Proof.Gen.Kernel.Launch
import proofs.«141298_g11441792876995_week1_w4_521_5_alg».proof.Proof.Gen.Kernel.Skeleton
import proofs.«141298_g11441792876995_week1_w4_521_5_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a matrix, as the constant function. -/
theorem hz2 : (![0, 0] : Fin 2 → ℕ) = fun _ => 0 := by funext a; fin_cases a <;> rfl

/-- The one store covers the output block. -/
theorem cover1 (p0 : Vec F S1000x16 .bf16) (y : S1000x16.Idx) :
    ∃ pc ∈ ([⟨Rect.unit (s := S1000x16) ![0, 0] S1000x16.size inb_S1000x16_S1000x16_0_0, p0⟩] : List (View.Piece (Elt F) S1000x16 .bf16)), y ∈ pc.1.set :=
  View.cover_of_tiled [⟨Rect.unit (s := S1000x16) ![0, 0] S1000x16.size inb_S1000x16_S1000x16_0_0, p0⟩] S1000x16.size (by rfl) y

set_option maxHeartbeats 4000000 in
/-- The body on whole staging memrefs: the output block ends at the layer's value of the operand blocks. -/
theorem sound_kernel1 (c : Dev nD) (E : Set ℕ) (i : grid1.Coords)
    (arg1 : Memref sig .tc .vmem S1000x10000 .bf16) (harg1 : arg1.IsWhole) (arg2 : Memref sig .tc .vmem S10000x32 .bf16) (harg2 : arg2.IsWhole)
    (arg3 : Memref sig .tc .vmem S1x32 .f32) (harg3 : arg3.IsWhole) (arg4 : Memref sig .tc .vmem S32x16 .f32) (harg4 : arg4.IsWhole)
    (arg5 : Memref sig .tc .vmem S1000x16 .bf16) (harg5 : arg5.IsWhole)
    (x0 : Vec F S1000x10000 .bf16) (x1 : Vec F S10000x32 .bf16) (x2 : Vec F S1x32 .f32) (x3 : Vec F S32x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay1 x0 x1 x2 x3)) -∗ K ⟨⟩))
      ⊢ wp frame (wpE (defs₀ (F := F)) Variants.none c none) E (cc1__layer2_body i arg1 harg1 arg2 harg2 arg3 harg3 arg4 harg4 arg5 harg5) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1 _)).trans ((View.canon_unit_zero hz2 _ _).trans ?_)
  simp only [View.readAt_eq_ld, View.ld_unit_zero (S := S1000x10000) hz2, View.ld_unit_zero (S := S10000x32) hz2, View.ld_unit_zero (S := S1x32) hz2, View.ld_unit_zero (S := S32x16) hz2]

end Cert.Kernel.Hand

end
-- ==== Proof.Kernel.Body2.lean ====
/-
  The last layer's kernel body as a separation-logic triple, for any float instance.

  The body reads its three operand blocks whole (a 1000-row block of the adjacency, every node's features, the bias row) and
  overwrites its output block whole with one stored value, the log-softmax of the block's rows; so the output block ends at
  that value of the operands.
-/
import proofs.«141298_g11441792876995_week1_w4_521_5_alg».proof.Proof.Gen.Kernel.Launch
import proofs.«141298_g11441792876995_week1_w4_521_5_alg».proof.Proof.Gen.Kernel.Skeleton
import proofs.«141298_g11441792876995_week1_w4_521_5_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a matrix, as the constant function. -/
theorem hz2 : (![0, 0] : Fin 2 → ℕ) = fun _ => 0 := by funext a; fin_cases a <;> rfl

/-- The one store covers the output block. -/
theorem cover2 (p0 : Vec F S1000x16 .f32) (y : S1000x16.Idx) :
    ∃ pc ∈ ([⟨Rect.unit (s := S1000x16) ![0, 0] S1000x16.size inb_S1000x16_S1000x16_0_0, p0⟩] : List (View.Piece (Elt F) S1000x16 .f32)), y ∈ pc.1.set :=
  View.cover_of_tiled [⟨Rect.unit (s := S1000x16) ![0, 0] S1000x16.size inb_S1000x16_S1000x16_0_0, p0⟩] S1000x16.size (by rfl) y

set_option maxHeartbeats 4000000 in
/-- The body on whole staging memrefs: the output block ends at the layer's value of the operand blocks. -/
theorem sound_kernel2 (c : Dev nD) (E : Set ℕ) (i : grid2.Coords)
    (arg1 : Memref sig .tc .vmem S1000x10000 .bf16) (harg1 : arg1.IsWhole) (arg2 : Memref sig .tc .vmem S10000x16 .bf16) (harg2 : arg2.IsWhole)
    (arg3 : Memref sig .tc .vmem S1x16 .f32) (harg3 : arg3.IsWhole) (arg4 : Memref sig .tc .vmem S1000x16 .f32) (harg4 : arg4.IsWhole)
    (x0 : Vec F S1000x10000 .bf16) (x1 : Vec F S10000x16 .bf16) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__layer3_body i arg1 harg1 arg2 harg2 arg3 harg3 arg4 harg4) K := by
  simp only [cc2__layer3_body_eq_skeleton]; unfold cc2__layer3_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover2 _)).trans ((View.canon_unit_zero hz2 _ _).trans ?_)
  simp only [View.readAt_eq_ld, View.ld_unit_zero (S := S1000x10000) hz2, View.ld_unit_zero (S := S10000x16) hz2, View.ld_unit_zero (S := S1x16) hz2]

end Cert.Kernel.Hand

end
-- ==== Proof.Kernel.Regs.lean ====
/-
  The three kernel regions' proof data and body obligations, for any float instance, at a parameter `V`: what the
  TensorCore's buffers hold when the region is entered.

  A region's data says what each window's staging buffer holds after the body at each grid point: an operand's buffer its
  block of the operand's array, an output's buffer the body's stored value of the operand blocks. The first region also
  keeps a scratch buffer between grid points: before the first point it holds anything; from then on it holds the product
  of the whole feature matrix with the first weight matrix, which the first point stored and later points only read. That
  is the region's invariant. Each obligation is then the body's triple at the point's buffers.
-/
import proofs.«141298_g11441792876995_week1_w4_521_5_alg».proof.Proof.Gen.Kernel.Launch
import proofs.«141298_g11441792876995_week1_w4_521_5_alg».proof.Proof.Gen.Kernel.Skeleton
import proofs.«141298_g11441792876995_week1_w4_521_5_alg».proof.Proof.Gen.Kernel.Points
import proofs.«141298_g11441792876995_week1_w4_521_5_alg».proof.Proof.Kernel.Body0
import proofs.«141298_g11441792876995_week1_w4_521_5_alg».proof.Proof.Kernel.Body1
import proofs.«141298_g11441792876995_week1_w4_521_5_alg».proof.Proof.Kernel.Body2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first layer's region -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
def t0_0 : Fin cfg0.N := ⟨0, by rw [show cfg0.N = 25 from N_0]; decide⟩

/-- The scratch buffer the kernel keeps between grid points, as a memref. -/
abbrev scM0 : Memref sig .tc .vmem S10000x32 .bf16 := Memref.whole cc0_scratch0

/-- What the scratch holds from the first point on: the product of the features with the first weights (both windows hold
    their whole arrays at every point; the first point's blocks name them). -/
def Z0 (c : Dev nD) : Vec F S10000x32 .bf16 := k0_pay1 (iblk0 V c 0 t0_0) (iblk0 V c 1 t0_0)

/-- The core's other scoped buffers (the other regions' staging buffers), at some contents each. -/
abbrev others0 (c : Dev nD) : sProp 𝕄 :=
  Pipeline.scopedRestBut (Ix := Unit) (Name := ℕ) (U := UR sig nD τ) (Lvl := ℕ) (Val := Elt F) spec0 c [cc0_scratch0]

/-- The region's invariant before position `n`: before the first point every scoped buffer that is no staging buffer
    of the region at anything and the generator register at some state; afterwards the same with the scratch at `Z0`. -/
def Phi0 (c : Dev nD) : ℕ → sProp 𝕄
  | 0 => Pipeline.ΦA spec0 c
  | _ + 1 => iprop(owns (c : Thread nD τ) scM0 fullShare (Z0 V c) ∗ others0 c ∗ ∃ r, prngReg c r)

theorem Phi0_pos (c : Dev nD) (n : ℕ) (hn : n ≠ 0) :
    Phi0 V c n = iprop(owns (c : Thread nD τ) scM0 fullShare (Z0 V c) ∗ others0 c ∗ ∃ r, prngReg c r) := by
  cases n with
  | zero => exact absurd rfl hn
  | succ n => rfl

/-- The class invariant with the scratch split off the other scoped buffers. -/
theorem PhiA0_eq (c : Dev nD) :
    (Pipeline.ΦA spec0 c : sProp 𝕄) = iprop(((∃ d, owns (c : Thread nD τ) scM0 fullShare d) ∗ others0 c) ∗ ∃ r, prngReg c r) := by
  unfold Pipeline.ΦA
  rw [Pipeline.scopedRest_split_of_list spec0 c [cc0_scratch0] (by decide) (by decide)]
  simp only [BI.bigSepL_singleton, scM0, owns_whole]
  rfl

/-- The proof data of the first region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 2 t)
    | ⟨6, _⟩ => k0_pay3 (iblk0 V c 2 t) (Z0 V c) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 2 t) := by dsimp only [dat0]
theorem after0_6 (c : Dev nD) (t : Fin cfg0.N) : (dat0 V c).after 6 t = k0_pay3 (iblk0 V c 2 t) (Z0 V c) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point. At the first point the invariant hands the scratch over at anything and takes it back at the
    stored product; at a later point it hands it over at that product and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6,
    show (dat0 V c).Φ t.succ = Phi0 V c (t.val + 1) from rfl, Phi0_pos V c (t.val + 1) (Nat.succ_ne_zero _),
    show (dat0 V c).Φ t.castSucc = Phi0 V c t.val from rfl]
  by_cases hz : t.val = 0
  · obtain rfl : t = t0_0 := Fin.ext hz
    rw [show Phi0 V c (t0_0 : Fin cfg0.N).val = Pipeline.ΦA spec0 c from rfl, PhiA0_eq]
    unfold Z0
    iintro ⟨⟨⟨HS, Hb⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t0_0) ((hcond0 t0_0).mpr rfl) _ _ _ _ _ _ _ _ _ _ _ _ _ _ _ _
      (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.val hz]
    iintro ⟨⟨HS, Hb, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_rest c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (Z0 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What enters the region is the invariant before the first point. -/
theorem Phi0_in (c : Dev nD) : (dat0 V c).Φ 0 = Pipeline.ΦA spec0 c := rfl

/-- After the last point the invariant gives the class invariant back: the scratch's named contents are forgotten. -/
theorem Phi0_out (c : Dev nD) : (dat0 V c).Φ (Fin.last cfg0.N) ⊢ Pipeline.ΦA spec0 c := by
  rw [show (dat0 V c).Φ (Fin.last cfg0.N) = Phi0 V c cfg0.N from rfl,
    Phi0_pos V c cfg0.N (by rw [show cfg0.N = 25 from N_0]; decide), PhiA0_eq]
  iintro ⟨HS, Hb, Hg⟩
  isplitl [HS Hb]
  · isplitl [HS]; · iexists _; iexact HS
    iexact Hb
  iexact Hg

/-! # The second layer's region -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second region: the class invariant throughout. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the operands' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # The last layer's region -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of the last region: the class invariant throughout. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay1 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 4000000 in
/-- The body at any point: the operands' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Run.lean ====
/-
  The whole program's run, for any float instance: @main is three stretches of host operations, each followed by a kernel
  region. The TensorCore's buffer contents are followed from the launch through the six items — a host stretch applies
  its operations, a region leaves each of its windows' arrays at what its write-backs make of it and every other buffer
  alone — and every weakly fair execution ends with every unscoped buffer at the last of these contents. Read at the
  argument arrays, which no item writes, that is the frame; read at the result array it names what the kernel computes.
-/
import proofs.«141298_g11441792876995_week1_w4_521_5_alg».proof.Proof.Gen.Kernel.Launch
import proofs.«141298_g11441792876995_week1_w4_521_5_alg».proof.Proof.Gen.Kernel.Skeleton
import proofs.«141298_g11441792876995_week1_w4_521_5_alg».proof.Proof.Gen.Kernel.Points
import proofs.«141298_g11441792876995_week1_w4_521_5_alg».proof.Proof.Kernel.Regs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

theorem hostOps0_fresh : (hostOps0 : List (HloOp τ sig (Elt F))).Forall fun op => op.fresh = ∅ := by
  simp only [List.Forall]; repeat' constructor
/-- The references the stretch's operations write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.reshape_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
/-- The references the stretch's operations write. -/
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall]; exact (by simp only [StableHlo.reshape_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
/-- The references the stretch's operations write. -/
abbrev hostOps2_W : List (Ref sig .tc) := [main_v4]
theorem hostOps2_writes : (hostOps2 : List (HloOp τ sig (Elt F))).Forall fun op => op.writes ⊆ (hostOps2_W.map (Proc.devRef (τ := τ) .tc)).toFinset := by
  simp only [List.Forall]; exact (by simp only [StableHlo.reshape_writes, Finset.singleton_subset_iff, List.mem_toFinset]; exact List.mem_map_of_mem (by decide))

/-! ## The buffer contents at each boundary between @main's items -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the operands as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the operands as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the operands as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and comes
    out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.Kernel.Hand

end
-- ==== Proof.KernelIdeal.Body0.lean ====
/-
  The first layer's kernel body as two separation-logic triples, for any float instance.

  The body takes the whole feature matrix and first weight matrix, a 400-row block of the adjacency, the bias row and the
  second weight matrix, two output blocks, and a scratch buffer it keeps between grid points. At the grid's first point it
  first stores the product of the features with the first weights into the scratch; at every point it then stores the
  adjacency block (in the narrower format) into the first output block, and the layer's value of the adjacency block, the
  scratch's contents, the bias and the second weights into the second output block. Every load and store is of a whole
  block at zero offsets, so a store leaves its payload and a load reads the contents.
-/
import proofs.«141298_g11441792876995_week1_w4_521_5_alg».proof.Proof.Gen.KernelIdeal.Launch
import proofs.«141298_g11441792876995_week1_w4_521_5_alg».proof.Proof.Gen.KernelIdeal.Skeleton
import proofs.«141298_g11441792876995_week1_w4_521_5_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a matrix, as the constant function. -/
theorem hz2 : (![0, 0] : Fin 2 → ℕ) = fun _ => 0 := by funext a; fin_cases a <;> rfl

/-- The body's one condition, as the printed scalar chain of the grid coordinate: it is at the first point. -/
abbrev cond0 (i : grid0.Coords) : Prop :=
  (Scalar.cmpi .ne (Scalar.extui (Scalar.cmpi .eq (BitVec.ofNat 32 (i 0).val) 0#32)) 0#32) = 1#1

/-- It holds at the first grid point and at no other: decided over the 25 points. -/
theorem hcond0 : ∀ t : Fin cfg0.N, cond0 (grid0.coords t) ↔ t.val = 0 :=
  (by decide +kernel : ∀ t : Fin grid0.N, cond0 (grid0.coords t) ↔ t.val = 0)

theorem cover0_6 (p0 : Vec F S400x10000 .bf16) (y : S400x10000.Idx) :
    ∃ pc ∈ ([⟨Rect.unit (s := S400x10000) ![0, 0] S400x10000.size inb_S400x10000_S400x10000_0_0, p0⟩] : List (View.Piece (Elt F) S400x10000 .bf16)), y ∈ pc.1.set :=
  ⟨_, List.mem_singleton_self _, View.mem_set_unit_zero (S := S400x10000) hz2 inb_S400x10000_S400x10000_0_0 y⟩
theorem cover0_7 (p0 : Vec F S400x32 .bf16) (y : S400x32.Idx) :
    ∃ pc ∈ ([⟨Rect.unit (s := S400x32) ![0, 0] S400x32.size inb_S400x32_S400x32_0_0, p0⟩] : List (View.Piece (Elt F) S400x32 .bf16)), y ∈ pc.1.set :=
  ⟨_, List.mem_singleton_self _, View.mem_set_unit_zero (S := S400x32) hz2 inb_S400x32_S400x32_0_0 y⟩
theorem cover0_8 (p0 : Vec F S10000x32 .bf16) (y : S10000x32.Idx) :
    ∃ pc ∈ ([⟨Rect.unit (s := S10000x32) ![0, 0] S10000x32.size inb_S10000x32_S10000x32_0_0, p0⟩] : List (View.Piece (Elt F) S10000x32 .bf16)), y ∈ pc.1.set :=
  ⟨_, List.mem_singleton_self _, View.mem_set_unit_zero (S := S10000x32) hz2 inb_S10000x32_S10000x32_0_0 y⟩

set_option maxHeartbeats 4000000 in
/-- At the first point: the scratch, at anything before, ends at the product of the features and the first weights, and
    the second output block is computed from that product. -/
theorem sound_kernel0_first (c : Dev nD) (E : Set ℕ) (i : grid0.Coords) (hc : cond0 i)
    (arg1 : Memref sig .tc .vmem S10000x128 .f32) (harg1 : arg1.IsWhole) (arg2 : Memref sig .tc .vmem S128x32 .f32) (harg2 : arg2.IsWhole)
    (arg3 : Memref sig .tc .vmem S400x10000 .f32) (harg3 : arg3.IsWhole) (arg4 : Memref sig .tc .vmem S1x32 .f32) (harg4 : arg4.IsWhole)
    (arg5 : Memref sig .tc .vmem S32x32 .f32) (harg5 : arg5.IsWhole) (arg6 : Memref sig .tc .vmem S400x10000 .bf16) (harg6 : arg6.IsWhole)
    (arg7 : Memref sig .tc .vmem S400x32 .bf16) (harg7 : arg7.IsWhole) (arg8 : Memref sig .tc .vmem S10000x32 .bf16) (harg8 : arg8.IsWhole)
    (x0 : Vec F S10000x128 .f32) (x1 : Vec F S128x32 .f32) (x2 : Vec F S400x10000 .f32) (x3 : Vec F S1x32 .f32) (x4 : Vec F S32x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2) ∗ owns (c : Thread nD τ) arg7 fullShare (k0_pay3 x2 (k0_pay1 x0 x1) x3 x4)
            ∗ owns (c : Thread nD τ) arg8 fullShare (k0_pay1 x0 x1)) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec (disch := first | exact hc)
  sl_unfold_run_names
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_6 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]
  isplitl [H6]
  · iexists _; isplitr
    swap; · iexact H6
    ipureintro
    refine (View.read_writes_eq_canon _ _ _ (cover0_7 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2, View.readCov_unit_zero (S := S10000x32) arg8.view hz2]
  iexists _; isplitr
  swap; · iexact H7
  ipureintro
  refine (View.read_writes_eq_canon _ _ _ (cover0_8 _)).trans ((View.canon_unit_zero hz2 _ _).trans ?_)
  simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]

set_option maxHeartbeats 4000000 in
/-- At any later point: the scratch is read and handed back as it was, and the second output block is computed from it. -/
theorem sound_kernel0_rest (c : Dev nD) (E : Set ℕ) (i : grid0.Coords) (hc : ¬cond0 i)
    (arg1 : Memref sig .tc .vmem S10000x128 .f32) (harg1 : arg1.IsWhole) (arg2 : Memref sig .tc .vmem S128x32 .f32) (harg2 : arg2.IsWhole)
    (arg3 : Memref sig .tc .vmem S400x10000 .f32) (harg3 : arg3.IsWhole) (arg4 : Memref sig .tc .vmem S1x32 .f32) (harg4 : arg4.IsWhole)
    (arg5 : Memref sig .tc .vmem S32x32 .f32) (harg5 : arg5.IsWhole) (arg6 : Memref sig .tc .vmem S400x10000 .bf16) (harg6 : arg6.IsWhole)
    (arg7 : Memref sig .tc .vmem S400x32 .bf16) (harg7 : arg7.IsWhole) (arg8 : Memref sig .tc .vmem S10000x32 .bf16) (harg8 : arg8.IsWhole)
    (x0 : Vec F S10000x128 .f32) (x1 : Vec F S128x32 .f32) (x2 : Vec F S400x10000 .f32) (x3 : Vec F S1x32 .f32) (x4 : Vec F S32x32 .f32)
    (xs : Vec F S10000x32 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x2) ∗ owns (c : Thread nD τ) arg7 fullShare (k0_pay3 x2 xs x3 x4)
            ∗ owns (c : Thread nD τ) arg8 fullShare xs) -∗ K ⟨⟩))
      ⊢ wp frame (wpE (defs₀ (F := F)) Variants.none c none) E (cc0__layer1_body i arg1 harg1 arg2 harg2 arg3 harg3 arg4 harg4 arg5 harg5 arg6 harg6 arg7 harg7 arg8 harg8) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, Hk⟩
  subst hf0 hf1 hf2 hf3 hf4 hf7
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_6 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]
  isplitl [H6]
  · iexists _; isplitr
    swap; · iexact H6
    ipureintro
    refine (View.read_writes_eq_canon _ _ _ (cover0_7 _)).trans ((View.canon_unit_zero hz2 _ _).trans ?_)
    simp only [View.readAt_eq_ld, View.ld_unit_zero (S := S10000x128) hz2, View.ld_unit_zero (S := S128x32) hz2, View.ld_unit_zero (S := S400x10000) hz2, View.ld_unit_zero (S := S1x32) hz2, View.ld_unit_zero (S := S32x32) hz2, View.ld_unit_zero (S := S10000x32) hz2]
  iexists f7; isplitr; · ipureintro; rfl
  iexact H7

end Cert.KernelIdeal.Hand

end
-- ==== Proof.KernelIdeal.Body1.lean ====
/-
  The second layer's kernel body as a separation-logic triple, for any float instance.

  The body reads its four operand blocks whole (a 1000-row block of the adjacency, every node's features, the bias row, the
  weight matrix) and overwrites its output block whole with one stored value. So from the operands' buffers at read
  contents and the output's buffer at anything it runs to the operands unchanged and the output at that value of the
  operands: a whole-block store at zero offsets leaves exactly its payload, and a whole-block load reads the contents.
-/
import proofs.«141298_g11441792876995_week1_w4_521_5_alg».proof.Proof.Gen.KernelIdeal.Launch
import proofs.«141298_g11441792876995_week1_w4_521_5_alg».proof.Proof.Gen.KernelIdeal.Skeleton
import proofs.«141298_g11441792876995_week1_w4_521_5_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a matrix, as the constant function. -/
theorem hz2 : (![0, 0] : Fin 2 → ℕ) = fun _ => 0 := by funext a; fin_cases a <;> rfl

/-- The one store covers the output block. -/
theorem cover1 (p0 : Vec F S1000x16 .bf16) (y : S1000x16.Idx) :
    ∃ pc ∈ ([⟨Rect.unit (s := S1000x16) ![0, 0] S1000x16.size inb_S1000x16_S1000x16_0_0, p0⟩] : List (View.Piece (Elt F) S1000x16 .bf16)), y ∈ pc.1.set :=
  View.cover_of_tiled [⟨Rect.unit (s := S1000x16) ![0, 0] S1000x16.size inb_S1000x16_S1000x16_0_0, p0⟩] S1000x16.size (by rfl) y

set_option maxHeartbeats 4000000 in
/-- The body on whole staging memrefs: the output block ends at the layer's value of the operand blocks. -/
theorem sound_kernel1 (c : Dev nD) (E : Set ℕ) (i : grid1.Coords)
    (arg1 : Memref sig .tc .vmem S1000x10000 .bf16) (harg1 : arg1.IsWhole) (arg2 : Memref sig .tc .vmem S10000x32 .bf16) (harg2 : arg2.IsWhole)
    (arg3 : Memref sig .tc .vmem S1x32 .f32) (harg3 : arg3.IsWhole) (arg4 : Memref sig .tc .vmem S32x16 .f32) (harg4 : arg4.IsWhole)
    (arg5 : Memref sig .tc .vmem S1000x16 .bf16) (harg5 : arg5.IsWhole)
    (x0 : Vec F S1000x10000 .bf16) (x1 : Vec F S10000x32 .bf16) (x2 : Vec F S1x32 .f32) (x3 : Vec F S32x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay1 x0 x1 x2 x3)) -∗ K ⟨⟩))
      ⊢ wp frame (wpE (defs₀ (F := F)) Variants.none c none) E (cc1__layer2_body i arg1 harg1 arg2 harg2 arg3 harg3 arg4 harg4 arg5 harg5) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1 _)).trans ((View.canon_unit_zero hz2 _ _).trans ?_)
  simp only [View.readAt_eq_ld, View.ld_unit_zero (S := S1000x10000) hz2, View.ld_unit_zero (S := S10000x32) hz2, View.ld_unit_zero (S := S1x32) hz2, View.ld_unit_zero (S := S32x16) hz2]

end Cert.KernelIdeal.Hand

end
-- ==== Proof.KernelIdeal.Body2.lean ====
/-
  The last layer's kernel body as a separation-logic triple, for any float instance.

  The body reads its three operand blocks whole (a 1000-row block of the adjacency, every node's features, the bias row) and
  overwrites its output block whole with one stored value, the log-softmax of the block's rows; so the output block ends at
  that value of the operands.
-/
import proofs.«141298_g11441792876995_week1_w4_521_5_alg».proof.Proof.Gen.KernelIdeal.Launch
import proofs.«141298_g11441792876995_week1_w4_521_5_alg».proof.Proof.Gen.KernelIdeal.Skeleton
import proofs.«141298_g11441792876995_week1_w4_521_5_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a matrix, as the constant function. -/
theorem hz2 : (![0, 0] : Fin 2 → ℕ) = fun _ => 0 := by funext a; fin_cases a <;> rfl

/-- The one store covers the output block. -/
theorem cover2 (p0 : Vec F S1000x16 .f32) (y : S1000x16.Idx) :
    ∃ pc ∈ ([⟨Rect.unit (s := S1000x16) ![0, 0] S1000x16.size inb_S1000x16_S1000x16_0_0, p0⟩] : List (View.Piece (Elt F) S1000x16 .f32)), y ∈ pc.1.set :=
  View.cover_of_tiled [⟨Rect.unit (s := S1000x16) ![0, 0] S1000x16.size inb_S1000x16_S1000x16_0_0, p0⟩] S1000x16.size (by rfl) y

set_option maxHeartbeats 4000000 in
/-- The body on whole staging memrefs: the output block ends at the layer's value of the operand blocks. -/
theorem sound_kernel2 (c : Dev nD) (E : Set ℕ) (i : grid2.Coords)
    (arg1 : Memref sig .tc .vmem S1000x10000 .bf16) (harg1 : arg1.IsWhole) (arg2 : Memref sig .tc .vmem S10000x16 .bf16) (harg2 : arg2.IsWhole)
    (arg3 : Memref sig .tc .vmem S1x16 .f32) (harg3 : arg3.IsWhole) (arg4 : Memref sig .tc .vmem S1000x16 .f32) (harg4 : arg4.IsWhole)
    (x0 : Vec F S1000x10000 .bf16) (x1 : Vec F S10000x16 .bf16) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k2_pay1 x0 x1 x2)) -∗ K ⟨⟩))
      ⊢ wp frame (wpE (defs₀ (F := F)) Variants.none c none) E (cc2__layer3_body i arg1 harg1 arg2 harg2 arg3 harg3 arg4 harg4) K := by
  simp only [cc2__layer3_body_eq_skeleton]; unfold cc2__layer3_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (cover2 _)).trans ((View.canon_unit_zero hz2 _ _).trans ?_)
  simp only [View.readAt_eq_ld, View.ld_unit_zero (S := S1000x10000) hz2, View.ld_unit_zero (S := S10000x16) hz2, View.ld_unit_zero (S := S1x16) hz2]

end Cert.KernelIdeal.Hand

end
-- ==== Proof.KernelIdeal.Regs.lean ====
/-
  The three kernel regions' proof data and body obligations, for any float instance, at a parameter `V`: what the
  TensorCore's buffers hold when the region is entered.

  A region's data says what each window's staging buffer holds after the body at each grid point: an operand's buffer its
  block of the operand's array, an output's buffer the body's stored value of the operand blocks. The first region also
  keeps a scratch buffer between grid points: before the first point it holds anything; from then on it holds the product
  of the whole feature matrix with the first weight matrix, which the first point stored and later points only read. That
  is the region's invariant. Each obligation is then the body's triple at the point's buffers.
-/
import proofs.«141298_g11441792876995_week1_w4_521_5_alg».proof.Proof.Gen.KernelIdeal.Launch
import proofs.«141298_g11441792876995_week1_w4_521_5_alg».proof.Proof.Gen.KernelIdeal.Skeleton
import proofs.«141298_g11441792876995_week1_w4_521_5_alg».proof.Proof.Gen.KernelIdeal.Points
import proofs.«141298_g11441792876995_week1_w4_521_5_alg».proof.Proof.KernelIdeal.Body0
import proofs.«141298_g11441792876995_week1_w4_521_5_alg».proof.Proof.KernelIdeal.Body1
import proofs.«141298_g11441792876995_week1_w4_521_5_alg».proof.Proof.KernelIdeal.Body2
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first layer's region -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The grid's first point. -/
def t0_0 : Fin cfg0.N := ⟨0, by rw [show cfg0.N = 25 from N_0]; decide⟩

/-- The scratch buffer the kernel keeps between grid points, as a memref. -/
abbrev scM0 : Memref sig .tc .vmem S10000x32 .bf16 := Memref.whole cc0_scratch0

/-- What the scratch holds from the first point on: the product of the features with the first weights (both windows hold
    their whole arrays at every point; the first point's blocks name them). -/
def Z0 (c : Dev nD) : Vec F S10000x32 .bf16 := k0_pay1 (iblk0 V c 0 t0_0) (iblk0 V c 1 t0_0)

/-- The core's other scoped buffers (the other regions' staging buffers), at some contents each. -/
abbrev others0 (c : Dev nD) : sProp 𝕄 :=
  Pipeline.scopedRestBut (Ix := Unit) (Name := ℕ) (U := UR sig nD τ) (Lvl := ℕ) (Val := Elt F) spec0 c [cc0_scratch0]

/-- The region's invariant before position `n`: before the first point every scoped buffer that is no staging buffer
    of the region at anything and the generator register at some state; afterwards the same with the scratch at `Z0`. -/
def Phi0 (c : Dev nD) : ℕ → sProp 𝕄
  | 0 => Pipeline.ΦA spec0 c
  | _ + 1 => iprop(owns (c : Thread nD τ) scM0 fullShare (Z0 V c) ∗ others0 c ∗ ∃ r, prngReg c r)

theorem Phi0_pos (c : Dev nD) (n : ℕ) (hn : n ≠ 0) :
    Phi0 V c n = iprop(owns (c : Thread nD τ) scM0 fullShare (Z0 V c) ∗ others0 c ∗ ∃ r, prngReg c r) := by
  cases n with
  | zero => exact absurd rfl hn
  | succ n => rfl

/-- The class invariant with the scratch split off the other scoped buffers. -/
theorem PhiA0_eq (c : Dev nD) :
    (Pipeline.ΦA spec0 c : sProp 𝕄) = iprop(((∃ d, owns (c : Thread nD τ) scM0 fullShare d) ∗ others0 c) ∗ ∃ r, prngReg c r) := by
  unfold Pipeline.ΦA
  rw [Pipeline.scopedRest_split_of_list spec0 c [cc0_scratch0] (by decide) (by decide)]
  simp only [BI.bigSepL_singleton, scM0, owns_whole]
  rfl

/-- The proof data of the first region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 2 t)
    | ⟨6, _⟩ => k0_pay3 (iblk0 V c 2 t) (Z0 V c) (iblk0 V c 3 t) (iblk0 V c 4 t)
  Φ t := Phi0 V c t.val
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 2 t) := by dsimp only [dat0]
theorem after0_6 (c : Dev nD) (t : Fin cfg0.N) : (dat0 V c).after 6 t = k0_pay3 (iblk0 V c 2 t) (Z0 V c) (iblk0 V c 3 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point. At the first point the invariant hands the scratch over at anything and takes it back at the
    stored product; at a later point it hands it over at that product and takes it back unchanged. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl,
    after0_0, after0_1, after0_2, after0_3, after0_4, after0_5, after0_6,
    show (dat0 V c).Φ t.succ = Phi0 V c (t.val + 1) from rfl, Phi0_pos V c (t.val + 1) (Nat.succ_ne_zero _),
    show (dat0 V c).Φ t.castSucc = Phi0 V c t.val from rfl]
  by_cases hz : t.val = 0
  · obtain rfl : t = t0_0 := Fin.ext hz
    rw [show Phi0 V c (t0_0 : Fin cfg0.N).val = Pipeline.ΦA spec0 c from rfl, PhiA0_eq]
    unfold Z0
    iintro ⟨⟨⟨HS, Hb⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_first c Set.univ (grid0.coords t0_0) ((hcond0 t0_0).mpr rfl) _ _ _ _ _ _ _ _ _ _ _ _ _ _ _ _
      (iblk0 V c 0 t0_0) (iblk0 V c 1 t0_0) (iblk0 V c 2 t0_0) (iblk0 V c 3 t0_0) (iblk0 V c 4 t0_0) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi0_pos V c t.val hz]
    iintro ⟨⟨HS, Hb, Hg⟩, Ho, ⟨%d0, H0⟩, ⟨%d1, H1⟩, ⟨%d2, H2⟩, ⟨%d3, H3⟩, ⟨%d4, H4⟩, ⟨%d5, H5⟩, ⟨%d6, H6⟩⟩
    iapply (sound_kernel0_rest c Set.univ (grid0.coords t) (fun h => hz ((hcond0 t).mp h)) _ _ _ _ _ _ _ _ _ _ _ _ _ _ _ _
      (iblk0 V c 0 t) (iblk0 V c 1 t) (iblk0 V c 2 t) (iblk0 V c 3 t) (iblk0 V c 4 t) (Z0 V c) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hb Hg]
    · isplitl [HS]; · iexact HS
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What enters the region is the invariant before the first point. -/
theorem Phi0_in (c : Dev nD) : (dat0 V c).Φ 0 = Pipeline.ΦA spec0 c := rfl

/-- After the last point the invariant gives the class invariant back: the scratch's named contents are forgotten. -/
theorem Phi0_out (c : Dev nD) : (dat0 V c).Φ (Fin.last cfg0.N) ⊢ Pipeline.ΦA spec0 c := by
  rw [show (dat0 V c).Φ (Fin.last cfg0.N) = Phi0 V c cfg0.N from rfl,
    Phi0_pos V c cfg0.N (by rw [show cfg0.N = 25 from N_0]; decide), PhiA0_eq]
  iintro ⟨HS, Hb, Hg⟩
  isplitl [HS Hb]
  · isplitl [HS]; · iexists _; iexact HS
    iexact Hb
  iexact Hg

/-! # The second layer's region -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second region: the class invariant throughout. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay1 (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 4000000 in
/-- The body at any point: the operands' buffers hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! # The last layer's region -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of the last region: the class invariant throughout. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay1 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 4000000 in
/-- The body at any point: the operands' buffers hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Run.lean ====
/-
  The whole program's run, for any float instance: @main is three stretches of host operations, each followed by a kernel
  region. The TensorCore's buffer contents are followed from the launch through the six items — a host stretch applies
  its operations, a region leaves each of its windows' arrays at what its write-backs make of it and every other buffer
  alone — and every weakly fair execution ends with every unscoped buffer at the last of these contents. Read at the
  argument arrays, which no item writes, that is the frame; read at the result array it names what the kernel computes.
-/
import proofs.«141298_g11441792876995_week1_w4_521_5_alg».proof.Proof.Gen.KernelIdeal.Launch
import proofs.«141298_g11441792876995_week1_w4_521_5_alg».proof.Proof.Gen.KernelIdeal.Skeleton
import proofs.«141298_g11441792876995_week1_w4_521_5_alg».proof.Proof.Gen.KernelIdeal.Points
import proofs.«141298_g11441792876995_week1_w4_521_5_alg».proof.Proof.KernelIdeal.Regs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write -/

theorem hostOps0_fresh : (hostOps0 : List (HloOp τ sig (Elt F))).Forall fun op => op.fresh = ∅ := by
  simp only [List.Forall]; repeat' constructor
/-- The references the stretch's operations write. -/
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.reshape_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor
/-- The references the stretch's operations write. -/
abbrev hostOps1_W : List (Ref sig .tc) := [main_v2]
theorem hostOps1_writes : (hostOps1 : List (HloOp τ sig (Elt F))).Forall fun op => op.writes ⊆ (hostOps1_W.map (Proc.devRef (τ := τ) .tc)).toFinset := by
  simp only [List.Forall]; exact (by simp only [StableHlo.reshape_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor
/-- The references the stretch's operations write. -/
abbrev hostOps2_W : List (Ref sig .tc) := [main_v4]
theorem hostOps2_writes : (hostOps2 : List (HloOp τ sig (Elt F))).Forall fun op => op.writes ⊆ (hostOps2_W.map (Proc.devRef (τ := τ) .tc)).toFinset := by
  simp only [List.Forall]; exact (by simp only [StableHlo.reshape_writes, Finset.singleton_subset_iff, List.mem_toFinset]; exact List.mem_map_of_mem (by decide))

/-! ## The buffer contents at each boundary between @main's items -/

/-- Core `c`'s buffers at launch. -/
abbrev W0 : Dev nD → Valuation τ sig (Elt F) := fun c b => (s₀ m ρ).mem ((c : Dev nD), b)
/-- After the host stretch before region 0. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit: its arrays at what the pipeline leaves (the operands as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch before region 1. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b

/-- At region 1's exit: its arrays at what the pipeline leaves (the operands as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch before region 2. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b

/-- At region 2's exit: its arrays at what the pipeline leaves (the operands as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched: no host operation and no region writes one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := (W2_arr m ρ c 4).trans (((dat0 (V1 m ρ) c).arrAt_in 4 rfl _).trans (A_eq0 (V1 m ρ) c 4))
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and comes
    out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_out (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and comes
    out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and comes
    out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.KernelIdeal.Hand

end
-- ==== Proof.Spec.lean ====
/-
  The three-layer graph convolution with a dense adjacency, as functions of coordinates on the extended reals.

  A layer multiplies the features by a weight matrix (`feat`), then each node sums its neighbours' rows weighted by
  the adjacency row and adds a bias (`agg`). Layers one and two clamp at zero (`relu`); the last is followed by a
  row-wise log-softmax: the row minus its maximum, minus the logarithm of the sum of the exponentials of that difference.
  Every sum runs over a whole axis at once, so no reassociation is involved anywhere.
-/
import Idealize.ShloMosaic.PureOps.Ideal

noncomputable section

namespace Cert.Gcn

open Idealize.ShloMosaic

/-- Entry `(r, c)` of the matrix product `X · W`. -/
def feat {n k d : ℕ} (X : Fin n → Fin k → EReal) (W : Fin k → Fin d → EReal) (r : Fin n) (c : Fin d) : EReal :=
  ∑ j : Fin k, X r j * W j c

/-- Entry `(r, c)` of `A · Z + b`, the bias `b` added to every row. -/
def agg {a n d : ℕ} (A : Fin a → Fin n → EReal) (Z : Fin n → Fin d → EReal) (b : Fin d → EReal) (r : Fin a) (c : Fin d) : EReal :=
  (∑ j : Fin n, A r j * Z j c) + b c

/-- The clamp at zero; the zero is the f32 zero word's value. -/
def relu (x : EReal) : EReal := max x (Ideal.ofBits .f32 0x00000000#32)

/-- The maximum of a row, folded from the value of the f32 word of minus infinity. -/
def rowMax {d : ℕ} (y : Fin d → EReal) : EReal :=
  (Finset.univ : Finset (Fin d)).fold max (Ideal.ofBits .f32 0xFF800000#32) y

/-- Entry `c` of the log-softmax of the row `y`. -/
def logSoftmaxRow {d : ℕ} (y : Fin d → EReal) (c : Fin d) : EReal :=
  (y c - rowMax y) - Ideal.log (∑ k : Fin d, Ideal.exp (y k - rowMax y))

/-- One hidden layer's output features: `relu (A · Z + b) · W`, entry `(r, c)`. The adjacency block `A` may hold
    only some of the rows (a row block), `Z` holds every node's features. -/
def hidden {a n d e : ℕ} (A : Fin a → Fin n → EReal) (Z : Fin n → Fin d → EReal) (b : Fin d → EReal)
    (W : Fin d → Fin e → EReal) (r : Fin a) (c : Fin e) : EReal :=
  feat (fun p k => relu (agg A Z b p k)) W r c

/-- The last layer: the log-softmax of the rows of `A · Z + b`, entry `(r, c)`. -/
def last {a n d : ℕ} (A : Fin a → Fin n → EReal) (Z : Fin n → Fin d → EReal) (b : Fin d → EReal)
    (r : Fin a) (c : Fin d) : EReal :=
  logSoftmaxRow (fun k => agg A Z b r k) c

/-- The whole network on 10000 nodes with 128 input features, 32 hidden features and 16 classes. -/
def out (X : Fin 10000 → Fin 128 → EReal) (A : Fin 10000 → Fin 10000 → EReal) (W1 : Fin 128 → Fin 32 → EReal)
    (b1 : Fin 32 → EReal) (W2 : Fin 32 → Fin 32 → EReal) (b2 : Fin 32 → EReal) (W3 : Fin 32 → Fin 16 → EReal)
    (b3 : Fin 16 → EReal) (r : Fin 10000) (c : Fin 16) : EReal :=
  last A (hidden A (hidden A (feat X W1) b1 W2) b2 W3) b3 r c

end Cert.Gcn

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.KPay.lean ====
/-
  The five values the kernel stores, read at an index on the extended reals.

  Each stored value is a composition of matrix products into a zero accumulator, a bias row repeated down the rows,
  a clamp at zero, and (for the last) a row-wise log-softmax. Read at the coordinates `(p, q)` every one of them is the
  corresponding function of coordinates of the graph convolution: the products are the sums of `feat` and `agg`, the
  repeated bias row is `b q`, the maximum against the zero splat is `relu`, and the row maximum, the exponentials' row
  sum and its logarithm assemble `logSoftmaxRow`. Rounding to a narrower format is the identity on the extended reals.
-/
import proofs.«141298_g11441792876995_week1_w4_521_5_alg».proof.Proof.Gen.KernelIdeal.Skeleton
import proofs.«141298_g11441792876995_week1_w4_521_5_alg».proof.Proof.Spec
import proofs.«141298_g11441792876995_week1_w4_521_5_alg».proof.Proof.LibLayout
import Idealize.ShloMosaic.Lib.Pipeline.Value
import Idealize.ShloMosaic.Lib.ValueIdx
import Idealize.ShloMosaic.Lib.ValueLayout
import Idealize.ShloMosaic.PureOps.Ideal.Laws

noncomputable section

namespace Cert.KPay

open Cert.KernelIdeal Cert.KernelIdeal.Gen Idealize.ShloMosaic Idealize.ShloMosaic.ValueIdx Cert.LibLayout

/-! ## The six matrix products

Each record contracts the left operand's second axis against the right operand's first; the left free axis is the
output's first coordinate and the right free axis its second. -/

theorem lhs0_A (j : S10000x32.Idx) (k : dot_S10000x128_S128x32_S10000x32_1_0_0_1_n_n.contr.Idx) : (dot_S10000x128_S128x32_S10000x32_1_0_0_1_n_n.lhsIdx j k 0).val = (j 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem rhs1_A (j : S10000x32.Idx) (k : dot_S10000x128_S128x32_S10000x32_1_0_0_1_n_n.contr.Idx) : (dot_S10000x128_S128x32_S10000x32_1_0_0_1_n_n.rhsIdx j k 1).val = (j 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl
/-- Entry `(p, q)` of the `10000 × 128` by `128 × 32` product into a zero accumulator: the sum over the contracted axis. -/
theorem mm_A {φ₁ φ₂ : FTy} (lhs : FVec Ideal S10000x128 φ₁) (rhs : FVec Ideal S128x32 φ₂) (p : Fin 10000) (q : Fin 32) :
    matmul dot_S10000x128_S128x32_S10000x32_1_0_0_1_n_n none lhs rhs (constant (F := Ideal) S10000x32 .f32 0x00000000#32) (ix2 p q) = ∑ k : Fin 128, lhs (ix2 p k) * rhs (ix2 k q) :=
  matmul_rows_cols_apply dot_S10000x128_S128x32_S10000x32_1_0_0_1_n_n rfl rfl rfl rfl lhs0_A rhs1_A none lhs rhs p q

theorem lhs0_B (j : S400x32.Idx) (k : dot_S400x10000_S10000x32_S400x32_1_0_0_1_n_n.contr.Idx) : (dot_S400x10000_S10000x32_S400x32_1_0_0_1_n_n.lhsIdx j k 0).val = (j 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem rhs1_B (j : S400x32.Idx) (k : dot_S400x10000_S10000x32_S400x32_1_0_0_1_n_n.contr.Idx) : (dot_S400x10000_S10000x32_S400x32_1_0_0_1_n_n.rhsIdx j k 1).val = (j 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl
/-- Entry `(p, q)` of the `400 × 10000` by `10000 × 32` product into a zero accumulator: the sum over the contracted axis. -/
theorem mm_B {φ₁ φ₂ : FTy} (lhs : FVec Ideal S400x10000 φ₁) (rhs : FVec Ideal S10000x32 φ₂) (p : Fin 400) (q : Fin 32) :
    matmul dot_S400x10000_S10000x32_S400x32_1_0_0_1_n_n none lhs rhs (constant (F := Ideal) S400x32 .f32 0x00000000#32) (ix2 p q) = ∑ k : Fin 10000, lhs (ix2 p k) * rhs (ix2 k q) :=
  matmul_rows_cols_apply dot_S400x10000_S10000x32_S400x32_1_0_0_1_n_n rfl rfl rfl rfl lhs0_B rhs1_B none lhs rhs p q

theorem lhs0_C (j : S400x32.Idx) (k : dot_S400x32_S32x32_S400x32_1_0_0_1_n_n.contr.Idx) : (dot_S400x32_S32x32_S400x32_1_0_0_1_n_n.lhsIdx j k 0).val = (j 0).val := by
  unfold DotDims.lhsIdx
  rw [dif_neg (show ¬(0 : Fin S400x32.rank) ∈ dot_S400x32_S32x32_S400x32_1_0_0_1_n_n.lhsBatch by decide), dif_pos (show (0 : Fin S400x32.rank) ∈ dot_S400x32_S32x32_S400x32_1_0_0_1_n_n.lhsNonContracting by decide)]
  rfl
theorem rhs1_C (j : S400x32.Idx) (k : dot_S400x32_S32x32_S400x32_1_0_0_1_n_n.contr.Idx) : (dot_S400x32_S32x32_S400x32_1_0_0_1_n_n.rhsIdx j k 1).val = (j 1).val := by
  unfold DotDims.rhsIdx
  rw [dif_neg (show ¬(1 : Fin S32x32.rank) ∈ dot_S400x32_S32x32_S400x32_1_0_0_1_n_n.rhsBatch by decide), dif_pos (show (1 : Fin S32x32.rank) ∈ dot_S400x32_S32x32_S400x32_1_0_0_1_n_n.rhsNonContracting by decide)]
  rfl
/-- Entry `(p, q)` of the `400 × 32` by `32 × 32` product into a zero accumulator: the sum over the contracted axis. -/
theorem mm_C {φ₁ φ₂ : FTy} (lhs : FVec Ideal S400x32 φ₁) (rhs : FVec Ideal S32x32 φ₂) (p : Fin 400) (q : Fin 32) :
    matmul dot_S400x32_S32x32_S400x32_1_0_0_1_n_n none lhs rhs (constant (F := Ideal) S400x32 .f32 0x00000000#32) (ix2 p q) = ∑ k : Fin 32, lhs (ix2 p k) * rhs (ix2 k q) :=
  matmul_rows_cols_apply dot_S400x32_S32x32_S400x32_1_0_0_1_n_n rfl rfl rfl rfl lhs0_C rhs1_C none lhs rhs p q

theorem lhs0_D (j : S1000x32.Idx) (k : dot_S1000x10000_S10000x32_S1000x32_1_0_0_1_n_n.contr.Idx) : (dot_S1000x10000_S10000x32_S1000x32_1_0_0_1_n_n.lhsIdx j k 0).val = (j 0).val := by
  unfold DotDims.lhsIdx
  rw [dif_neg (show ¬(0 : Fin S1000x10000.rank) ∈ dot_S1000x10000_S10000x32_S1000x32_1_0_0_1_n_n.lhsBatch by decide), dif_pos (show (0 : Fin S1000x10000.rank) ∈ dot_S1000x10000_S10000x32_S1000x32_1_0_0_1_n_n.lhsNonContracting by decide)]
  rfl
theorem rhs1_D (j : S1000x32.Idx) (k : dot_S1000x10000_S10000x32_S1000x32_1_0_0_1_n_n.contr.Idx) : (dot_S1000x10000_S10000x32_S1000x32_1_0_0_1_n_n.rhsIdx j k 1).val = (j 1).val := by
  unfold DotDims.rhsIdx
  rw [dif_neg (show ¬(1 : Fin S10000x32.rank) ∈ dot_S1000x10000_S10000x32_S1000x32_1_0_0_1_n_n.rhsBatch by decide), dif_pos (show (1 : Fin S10000x32.rank) ∈ dot_S1000x10000_S10000x32_S1000x32_1_0_0_1_n_n.rhsNonContracting by decide)]
  rfl
/-- Entry `(p, q)` of the `1000 × 10000` by `10000 × 32` product into a zero accumulator: the sum over the contracted axis. -/
theorem mm_D {φ₁ φ₂ : FTy} (lhs : FVec Ideal S1000x10000 φ₁) (rhs : FVec Ideal S10000x32 φ₂) (p : Fin 1000) (q : Fin 32) :
    matmul dot_S1000x10000_S10000x32_S1000x32_1_0_0_1_n_n none lhs rhs (constant (F := Ideal) S1000x32 .f32 0x00000000#32) (ix2 p q) = ∑ k : Fin 10000, lhs (ix2 p k) * rhs (ix2 k q) :=
  matmul_rows_cols_apply dot_S1000x10000_S10000x32_S1000x32_1_0_0_1_n_n rfl rfl rfl rfl lhs0_D rhs1_D none lhs rhs p q

theorem lhs0_E (j : S1000x16.Idx) (k : dot_S1000x32_S32x16_S1000x16_1_0_0_1_n_n.contr.Idx) : (dot_S1000x32_S32x16_S1000x16_1_0_0_1_n_n.lhsIdx j k 0).val = (j 0).val := by
  unfold DotDims.lhsIdx
  rw [dif_neg (show ¬(0 : Fin S1000x32.rank) ∈ dot_S1000x32_S32x16_S1000x16_1_0_0_1_n_n.lhsBatch by decide), dif_pos (show (0 : Fin S1000x32.rank) ∈ dot_S1000x32_S32x16_S1000x16_1_0_0_1_n_n.lhsNonContracting by decide)]
  rfl
theorem rhs1_E (j : S1000x16.Idx) (k : dot_S1000x32_S32x16_S1000x16_1_0_0_1_n_n.contr.Idx) : (dot_S1000x32_S32x16_S1000x16_1_0_0_1_n_n.rhsIdx j k 1).val = (j 1).val := by
  unfold DotDims.rhsIdx
  rw [dif_neg (show ¬(1 : Fin S32x16.rank) ∈ dot_S1000x32_S32x16_S1000x16_1_0_0_1_n_n.rhsBatch by decide), dif_pos (show (1 : Fin S32x16.rank) ∈ dot_S1000x32_S32x16_S1000x16_1_0_0_1_n_n.rhsNonContracting by decide)]
  rfl
/-- Entry `(p, q)` of the `1000 × 32` by `32 × 16` product into a zero accumulator: the sum over the contracted axis. -/
theorem mm_E {φ₁ φ₂ : FTy} (lhs : FVec Ideal S1000x32 φ₁) (rhs : FVec Ideal S32x16 φ₂) (p : Fin 1000) (q : Fin 16) :
    matmul dot_S1000x32_S32x16_S1000x16_1_0_0_1_n_n none lhs rhs (constant (F := Ideal) S1000x16 .f32 0x00000000#32) (ix2 p q) = ∑ k : Fin 32, lhs (ix2 p k) * rhs (ix2 k q) :=
  matmul_rows_cols_apply dot_S1000x32_S32x16_S1000x16_1_0_0_1_n_n rfl rfl rfl rfl lhs0_E rhs1_E none lhs rhs p q

theorem lhs0_G (j : S1000x16.Idx) (k : dot_S1000x10000_S10000x16_S1000x16_1_0_0_1_n_n.contr.Idx) : (dot_S1000x10000_S10000x16_S1000x16_1_0_0_1_n_n.lhsIdx j k 0).val = (j 0).val := by
  unfold DotDims.lhsIdx
  rw [dif_neg (show ¬(0 : Fin S1000x10000.rank) ∈ dot_S1000x10000_S10000x16_S1000x16_1_0_0_1_n_n.lhsBatch by decide), dif_pos (show (0 : Fin S1000x10000.rank) ∈ dot_S1000x10000_S10000x16_S1000x16_1_0_0_1_n_n.lhsNonContracting by decide)]
  rfl
theorem rhs1_G (j : S1000x16.Idx) (k : dot_S1000x10000_S10000x16_S1000x16_1_0_0_1_n_n.contr.Idx) : (dot_S1000x10000_S10000x16_S1000x16_1_0_0_1_n_n.rhsIdx j k 1).val = (j 1).val := by
  unfold DotDims.rhsIdx
  rw [dif_neg (show ¬(1 : Fin S10000x16.rank) ∈ dot_S1000x10000_S10000x16_S1000x16_1_0_0_1_n_n.rhsBatch by decide), dif_pos (show (1 : Fin S10000x16.rank) ∈ dot_S1000x10000_S10000x16_S1000x16_1_0_0_1_n_n.rhsNonContracting by decide)]
  rfl
/-- Entry `(p, q)` of the `1000 × 10000` by `10000 × 16` product into a zero accumulator: the sum over the contracted axis. -/
theorem mm_G {φ₁ φ₂ : FTy} (lhs : FVec Ideal S1000x10000 φ₁) (rhs : FVec Ideal S10000x16 φ₂) (p : Fin 1000) (q : Fin 16) :
    matmul dot_S1000x10000_S10000x16_S1000x16_1_0_0_1_n_n none lhs rhs (constant (F := Ideal) S1000x16 .f32 0x00000000#32) (ix2 p q) = ∑ k : Fin 10000, lhs (ix2 p k) * rhs (ix2 k q) :=
  matmul_rows_cols_apply dot_S1000x10000_S10000x16_S1000x16_1_0_0_1_n_n rfl rfl rfl rfl lhs0_G rhs1_G none lhs rhs p q

/-! ## The stored values -/

/-- The adjacency block rounded to the narrower format: unchanged on the extended reals. -/
theorem pay2 (v3 : Vec Ideal S400x10000 .f32) (p : Fin 400) (j : Fin 10000) :
    k0_pay2 (F := Ideal) v3 (ix2 p j) = v3 (ix2 p j) := rfl

/-- The first layer's feature product `X · W₁`. -/
theorem pay1 (v18 : Vec Ideal S10000x128 .f32) (v19 : Vec Ideal S128x32 .f32) (r : Fin 10000) (c : Fin 32) :
    k0_pay1 (F := Ideal) v18 v19 (ix2 r c)
      = Cert.Gcn.feat (fun r k => v18 (ix2 r k)) (fun k c => v19 (ix2 k c)) r c := by
  unfold k0_pay1
  refine (congrFun (shapeCast_self _ shapeCasts_S10000x32_S10000x32) (ix2 r c)).trans ?_
  refine (truncf_apply _ bitsLt_bf16_f32 (ix2 r c)).trans ?_
  exact mm_A (φ₁ := .f32) (φ₂ := .f32) v18 v19 r c

/-- A hidden layer on a block of 400 rows: `relu (A · Z + b) · W`. -/
theorem pay3 (v3 : Vec Ideal S400x10000 .f32) (v6 : Vec Ideal S10000x32 .bf16) (v8 : Vec Ideal S1x32 .f32)
    (v14 : Vec Ideal S32x32 .f32) (p : Fin 400) (q : Fin 32) :
    k0_pay3 (F := Ideal) v3 v6 v8 v14 (ix2 p q)
      = Cert.Gcn.hidden (fun p j => v3 (ix2 p j)) (fun j k => v6 (ix2 j k)) (fun k => v8 (ix2 (0 : Fin 1) k))
          (fun k q => v14 (ix2 k q)) p q := by
  unfold k0_pay3
  simp only [shapeCast_self]
  show _ = ∑ k : Fin 32, max ((∑ j : Fin 10000, v3 (ix2 p j) * v6 (ix2 j k)) + v8 (ix2 (0 : Fin 1) k))
      (Ideal.ofBits .f32 0x00000000#32) * v14 (ix2 k q)
  refine (truncf_apply _ bitsLt_bf16_f32 (ix2 p q)).trans ?_
  refine (mm_C (φ₁ := .f32) (φ₂ := .f32) _ v14 p q).trans ?_
  refine Finset.sum_congr rfl fun k _ => congrArg (· * v14 (ix2 k q)) ?_
  refine (maximumf_apply _ _ (ix2 p k)).trans ?_
  refine congrArg₂ max ?_ rfl
  refine (addf_apply _ _ (ix2 p k)).trans ?_
  exact congrArg₂ (· + ·) (mm_B (φ₁ := .bf16) (φ₂ := .bf16) (k0_pay2 (F := Ideal) v3) v6 p k)
    (broadcastTo_1b_ab_apply v8 broadcasts_S1x32_S400x32 p k)

/-- A hidden layer on a block of 1000 rows: `relu (A · Z + b) · W`. -/
theorem pay4 (v0 : Vec Ideal S1000x10000 .bf16) (v2 : Vec Ideal S10000x32 .bf16) (v5 : Vec Ideal S1x32 .f32)
    (v11 : Vec Ideal S32x16 .f32) (p : Fin 1000) (q : Fin 16) :
    k1_pay1 (F := Ideal) v0 v2 v5 v11 (ix2 p q)
      = Cert.Gcn.hidden (fun p j => v0 (ix2 p j)) (fun j k => v2 (ix2 j k)) (fun k => v5 (ix2 (0 : Fin 1) k))
          (fun k q => v11 (ix2 k q)) p q := by
  unfold k1_pay1
  simp only [shapeCast_self]
  show _ = ∑ k : Fin 32, max ((∑ j : Fin 10000, v0 (ix2 p j) * v2 (ix2 j k)) + v5 (ix2 (0 : Fin 1) k))
      (Ideal.ofBits .f32 0x00000000#32) * v11 (ix2 k q)
  refine (truncf_apply _ bitsLt_bf16_f32 (ix2 p q)).trans ?_
  refine (mm_E (φ₁ := .f32) (φ₂ := .f32) _ v11 p q).trans ?_
  refine Finset.sum_congr rfl fun k _ => congrArg (· * v11 (ix2 k q)) ?_
  refine (maximumf_apply _ _ (ix2 p k)).trans ?_
  refine congrArg₂ max ?_ rfl
  refine (addf_apply _ _ (ix2 p k)).trans ?_
  exact congrArg₂ (· + ·) (mm_D (φ₁ := .bf16) (φ₂ := .bf16) v0 v2 p k)
    (broadcastTo_1b_ab_apply v5 broadcasts_S1x32_S1000x32 p k)

/-- A vector of 1000 entries laid as a column and repeated along 16 columns reads, at `(p, c)`, its entry `p`. -/
theorem colOfRows_apply (X : FVec Ideal S1000 .f32) (p : Fin 1000) (c : Fin 16) :
    (broadcastTo S1000x16 (shapeCast S1000x1 X shapeCasts_S1000_S1000x1) broadcasts_S1000x1_S1000x16) (ix2 p c) = X (ix1 p) :=
  (broadcastTo_a1_ab_apply _ _ p c).trans (shapeCast_a_a1_apply _ _ p 0)

/-- The same with the logarithm taken on the column before it is repeated. -/
theorem colLog_apply (X : FVec Ideal S1000 .f32) (p : Fin 1000) (c : Fin 16) :
    (broadcastTo S1000x16 (log (shapeCast S1000x1 X shapeCasts_S1000_S1000x1)) broadcasts_S1000x1_S1000x16) (ix2 p c) = Ideal.log (X (ix1 p)) :=
  (broadcastTo_a1_ab_apply _ _ p c).trans (congrArg Ideal.log (shapeCast_a_a1_apply _ _ p 0))

/-- The row-wise log-softmax of a `1000 × 16` matrix as the kernel spells it — the row maximum from `-∞`, the
    difference, the row sum of its exponentials from zero, the logarithm, the second difference — read at `(p, q)`. -/
theorem logSoftmax_apply (Y : FVec Ideal S1000x16 .f32) (p : Fin 1000) (q : Fin 16) :
    subf (subf Y (broadcastTo S1000x16 (shapeCast S1000x1 (multiReduction .maximumf [1] S1000 Y 0xFF800000#32 reduces_S1000x16_S1000 (.inl rfl) rfl) shapeCasts_S1000_S1000x1) broadcasts_S1000x1_S1000x16))
      (broadcastTo S1000x16 (log (shapeCast S1000x1 (multiReduction .add [1] S1000 (exp (subf Y (broadcastTo S1000x16 (shapeCast S1000x1 (multiReduction .maximumf [1] S1000 Y 0xFF800000#32 reduces_S1000x16_S1000 (.inl rfl) rfl) shapeCasts_S1000_S1000x1) broadcasts_S1000x1_S1000x16))) 0x00000000#32 reduces_S1000x16_S1000 (.inl rfl) rfl) shapeCasts_S1000_S1000x1)) broadcasts_S1000x1_S1000x16) (ix2 p q)
      = Cert.Gcn.logSoftmaxRow (fun k => Y (ix2 p k)) q := by
  have hM : ∀ c : Fin 16, (broadcastTo S1000x16 (shapeCast S1000x1 (multiReduction .maximumf [1] S1000 Y 0xFF800000#32 reduces_S1000x16_S1000 (.inl rfl) rfl) shapeCasts_S1000_S1000x1) broadcasts_S1000x1_S1000x16) (ix2 p c) = Cert.Gcn.rowMax (fun k => Y (ix2 p k)) := fun c =>
    (colOfRows_apply _ p c).trans (max_rows_apply Y _ _ _ p)
  refine (subf_apply _ _ _).trans ?_
  refine congrArg₂ (· - ·) ((subf_apply _ _ _).trans (congrArg (Y (ix2 p q) - ·) (hM q))) ?_
  refine (colLog_apply _ p q).trans (congrArg Ideal.log ?_)
  refine (sum_rows_apply _ _ _ _ p).trans (Finset.sum_congr rfl fun k _ => ?_)
  exact congrArg Ideal.exp ((subf_apply _ _ _).trans (congrArg (Y (ix2 p k) - ·) (hM k)))

/-- The last layer on a block of 1000 rows: the log-softmax of the rows of `A · Z + b`. -/
theorem pay5 (v0 : Vec Ideal S1000x10000 .bf16) (v2 : Vec Ideal S10000x16 .bf16) (v5 : Vec Ideal S1x16 .f32)
    (p : Fin 1000) (q : Fin 16) :
    k2_pay1 (F := Ideal) v0 v2 v5 (ix2 p q)
      = Cert.Gcn.last (fun p j => v0 (ix2 p j)) (fun j k => v2 (ix2 j k)) (fun k => v5 (ix2 (0 : Fin 1) k)) p q := by
  unfold k2_pay1
  simp only [shapeCast_self]
  refine (logSoftmax_apply _ p q).trans ?_
  refine congrArg (Cert.Gcn.logSoftmaxRow · q) (funext fun k => ?_)
  refine (addf_apply _ _ (ix2 p k)).trans ?_
  exact congrArg₂ (· + ·) (mm_G (φ₁ := .bf16) (φ₂ := .bf16) v0 v2 p k)
    (broadcastTo_1b_ab_apply v5 broadcasts_S1x16_S1000x16 p k)

end Cert.KPay

end
-- ==== Proof.Blocks.lean ====
/-
  Where the windows' blocks sit in their arrays.

  Each of the three grids has one axis. A window either holds its whole array at every grid point, or it holds the
  block of rows number `t` at point `t`: rows `t * 400 … t * 400 + 399` on the grid of 25 points, rows
  `t * 1000 … t * 1000 + 999` on the grids of 10 points, every column. A block's element `(p, j)` therefore sits in
  the array at `(p, j)` itself for a whole-array window and at `(t * h + p, j)` for a row-block window of height `h`;
  and since `25 * 400 = 10 * 1000 = 10000`, the row blocks of the written windows cover every row of their arrays:
  row `r` is in the block of point `r / h`.
-/
import proofs.«141298_g11441792876995_week1_w4_521_5_alg».proof.Proof.Gen.KernelIdeal.Launch
import proofs.«141298_g11441792876995_week1_w4_521_5_alg».proof.Proof.Gen.KernelIdeal.Points
import Idealize.ShloMosaic.Lib.Pipeline.Value
import Idealize.ShloMosaic.Lib.ValueIdx

noncomputable section

namespace Cert.Blocks

open Cert.KernelIdeal Cert.KernelIdeal.Gen Idealize.ShloMosaic Idealize.ShloMosaic.ValueIdx

/-! ## The grid of 25 points: blocks of 400 rows -/

/-- The index maps, decided over the grid: a whole-array window's block index is `(0, 0)` at every point, a row-block
    window's is `(t, 0)` at point `t`. -/
theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 2) = 0 ∧ win0_4.index t (1 : Fin 2) = 0 :=
  (by decide +kernel : ∀ t : Fin grid0.N, _)
theorem idx0_5 : ∀ t : Fin cfg0.N, win0_5.index t (0 : Fin 2) = t.val ∧ win0_5.index t (1 : Fin 2) = 0 :=
  (by decide +kernel : ∀ t : Fin grid0.N, _)
theorem idx0_6 : ∀ t : Fin cfg0.N, win0_6.index t (0 : Fin 2) = t.val ∧ win0_6.index t (1 : Fin 2) = 0 :=
  (by decide +kernel : ∀ t : Fin grid0.N, _)

/-- Row `p` of the block of point `t`, as a row of the array. -/
def row0 (t : Fin cfg0.N) (p : Fin 400) : Fin 10000 :=
  ⟨t.val * 400 + p.val, by have ht : t.val < 25 := t.isLt; have hp := p.isLt; omega⟩
theorem row0_val (t : Fin cfg0.N) (p : Fin 400) : (row0 t p).val = t.val * 400 + p.val := rfl
/-- Every row of the array is a row of some point's block: row `r` is row `r % 400` of point `r / 400`. -/
theorem row0_surj (r : Fin 10000) : ∃ (t : Fin cfg0.N) (p : Fin 400), r = row0 t p := by
  have hr := r.isLt
  exact ⟨⟨r.val / 400, by show r.val / 400 < 25; omega⟩, ⟨r.val % 400, by omega⟩,
    Fin.ext (by show r.val = r.val / 400 * 400 + r.val % 400; omega)⟩
/-- The point and the row inside its block are determined by the array's row. -/
theorem row0_inj {t t' : Fin cfg0.N} {p p' : Fin 400} (e : row0 t p = row0 t' p') : t = t' ∧ p = p' := by
  have e' : t.val * 400 + p.val = t'.val * 400 + p'.val := congrArg Fin.val e
  have hp := p.isLt; have hp' := p'.isLt
  exact ⟨Fin.ext (by omega), Fin.ext (by omega)⟩

/-! Where a block's element sits in its array. -/

/-- Window 0 holds its whole `10000 × 128` array at every point. -/
theorem emb0_0 (t : Fin cfg0.N) (r : Fin 10000) (k : Fin 128) :
    ((cfg0.win 0).blk t).view.emb (ix2 r k) = ix2 r k := by
  obtain ⟨e0, e1⟩ := idx0_0 t
  funext a; apply Fin.ext
  match a with
  | ⟨0, _⟩ => show win0_0.index t (0 : Fin 2) * 10000 + 1 * r.val = r.val; omega
  | ⟨1, _⟩ => show win0_0.index t (1 : Fin 2) * 128 + 1 * k.val = k.val; omega
/-- Window 1 holds its whole `128 × 32` array at every point. -/
theorem emb0_1 (t : Fin cfg0.N) (r : Fin 128) (k : Fin 32) :
    ((cfg0.win 1).blk t).view.emb (ix2 r k) = ix2 r k := by
  obtain ⟨e0, e1⟩ := idx0_1 t
  funext a; apply Fin.ext
  match a with
  | ⟨0, _⟩ => show win0_1.index t (0 : Fin 2) * 128 + 1 * r.val = r.val; omega
  | ⟨1, _⟩ => show win0_1.index t (1 : Fin 2) * 32 + 1 * k.val = k.val; omega
/-- Window 2 holds, at point `t`, the `400` rows from `t * 400` of its array of `10000` columns. -/
theorem emb0_2 (t : Fin cfg0.N) (p : Fin 400) (j : Fin 10000) :
    ((cfg0.win 2).blk t).view.emb (ix2 p j) = ix2 (row0 t p) j := by
  obtain ⟨e0, e1⟩ := idx0_2 t
  funext a; apply Fin.ext
  match a with
  | ⟨0, _⟩ => show win0_2.index t (0 : Fin 2) * 400 + 1 * p.val = t.val * 400 + p.val; omega
  | ⟨1, _⟩ => show win0_2.index t (1 : Fin 2) * 10000 + 1 * j.val = j.val; omega
/-- Window 3 holds its whole `1 × 32` array at every point. -/
theorem emb0_3 (t : Fin cfg0.N) (r : Fin 1) (k : Fin 32) :
    ((cfg0.win 3).blk t).view.emb (ix2 r k) = ix2 r k := by
  obtain ⟨e0, e1⟩ := idx0_3 t
  funext a; apply Fin.ext
  match a with
  | ⟨0, _⟩ => show win0_3.index t (0 : Fin 2) * 1 + 1 * r.val = r.val; omega
  | ⟨1, _⟩ => show win0_3.index t (1 : Fin 2) * 32 + 1 * k.val = k.val; omega
/-- Window 4 holds its whole `32 × 32` array at every point. -/
theorem emb0_4 (t : Fin cfg0.N) (r : Fin 32) (k : Fin 32) :
    ((cfg0.win 4).blk t).view.emb (ix2 r k) = ix2 r k := by
  obtain ⟨e0, e1⟩ := idx0_4 t
  funext a; apply Fin.ext
  match a with
  | ⟨0, _⟩ => show win0_4.index t (0 : Fin 2) * 32 + 1 * r.val = r.val; omega
  | ⟨1, _⟩ => show win0_4.index t (1 : Fin 2) * 32 + 1 * k.val = k.val; omega
/-- Window 5 holds, at point `t`, the `400` rows from `t * 400` of its array of `10000` columns. -/
theorem emb0_5 (t : Fin cfg0.N) (p : Fin 400) (j : Fin 10000) :
    ((cfg0.win 5).blk t).view.emb (ix2 p j) = ix2 (row0 t p) j := by
  obtain ⟨e0, e1⟩ := idx0_5 t
  funext a; apply Fin.ext
  match a with
  | ⟨0, _⟩ => show win0_5.index t (0 : Fin 2) * 400 + 1 * p.val = t.val * 400 + p.val; omega
  | ⟨1, _⟩ => show win0_5.index t (1 : Fin 2) * 10000 + 1 * j.val = j.val; omega
/-- Window 6 holds, at point `t`, the `400` rows from `t * 400` of its array of `32` columns. -/
theorem emb0_6 (t : Fin cfg0.N) (p : Fin 400) (j : Fin 32) :
    ((cfg0.win 6).blk t).view.emb (ix2 p j) = ix2 (row0 t p) j := by
  obtain ⟨e0, e1⟩ := idx0_6 t
  funext a; apply Fin.ext
  match a with
  | ⟨0, _⟩ => show win0_6.index t (0 : Fin 2) * 400 + 1 * p.val = t.val * 400 + p.val; omega
  | ⟨1, _⟩ => show win0_6.index t (1 : Fin 2) * 32 + 1 * j.val = j.val; omega

/-! The written windows' blocks cover their arrays. -/

/-- An index of the array is in point `t`'s block of window 5 iff each coordinate is in the block's range on its axis. -/
theorem mem_blk0_5 (t : Fin cfg0.N) (i : S10000x10000.Idx) :
    i ∈ ((cfg0.win 5).blk t).view.set ↔ ∀ a : Fin 2, win0_5.index t a * S400x10000.size a ≤ (i a).val
      ∧ (i a).val < win0_5.index t a * S400x10000.size a + S400x10000.size a := by
  show i ∈ ((View.whole main_v1_0).slice (win0_5.rect t)).set ↔ _
  rw [View.set_slice_whole, Rect.mem_set_unit]
  exact Iff.rfl

/-- Every index of window 5's array is in the block of a point that writes it back: row `r` in that of point `r / 400`. -/
theorem cover0_5 : ∀ i : S10000x10000.Idx, ∃ t : Fin cfg0.N, (cfg0.win 5).flush t = true ∧ i ∈ ((cfg0.win 5).blk t).view.set := by
  intro i
  have hi0 : (i 0).val < 10000 := (i 0).isLt
  have hi1 : (i 1).val < 10000 := (i 1).isLt
  have hq : (i 0).val / 400 < 25 := by omega
  obtain ⟨e0, e1⟩ := idx0_5 ⟨(i 0).val / 400, hq⟩
  refine ⟨⟨(i 0).val / 400, hq⟩, flush0_5 _, ?_⟩
  rw [mem_blk0_5]
  intro a
  match a with
  | ⟨0, _⟩ =>
    show win0_5.index ⟨(i 0).val / 400, hq⟩ (0 : Fin 2) * 400 ≤ (i 0).val
      ∧ (i 0).val < win0_5.index ⟨(i 0).val / 400, hq⟩ (0 : Fin 2) * 400 + 400
    have e0' : win0_5.index ⟨(i 0).val / 400, hq⟩ (0 : Fin 2) = (i 0).val / 400 := e0
    omega
  | ⟨1, _⟩ =>
    show win0_5.index ⟨(i 0).val / 400, hq⟩ (1 : Fin 2) * 10000 ≤ (i 1).val
      ∧ (i 1).val < win0_5.index ⟨(i 0).val / 400, hq⟩ (1 : Fin 2) * 10000 + 10000
    omega

/-- An index of the array is in point `t`'s block of window 6 iff each coordinate is in the block's range on its axis. -/
theorem mem_blk0_6 (t : Fin cfg0.N) (i : S10000x32.Idx) :
    i ∈ ((cfg0.win 6).blk t).view.set ↔ ∀ a : Fin 2, win0_6.index t a * S400x32.size a ≤ (i a).val
      ∧ (i a).val < win0_6.index t a * S400x32.size a + S400x32.size a := by
  show i ∈ ((View.whole main_v1_1).slice (win0_6.rect t)).set ↔ _
  rw [View.set_slice_whole, Rect.mem_set_unit]
  exact Iff.rfl

/-- Every index of window 6's array is in the block of a point that writes it back: row `r` in that of point `r / 400`. -/
theorem cover0_6 : ∀ i : S10000x32.Idx, ∃ t : Fin cfg0.N, (cfg0.win 6).flush t = true ∧ i ∈ ((cfg0.win 6).blk t).view.set := by
  intro i
  have hi0 : (i 0).val < 10000 := (i 0).isLt
  have hi1 : (i 1).val < 32 := (i 1).isLt
  have hq : (i 0).val / 400 < 25 := by omega
  obtain ⟨e0, e1⟩ := idx0_6 ⟨(i 0).val / 400, hq⟩
  refine ⟨⟨(i 0).val / 400, hq⟩, flush0_6 _, ?_⟩
  rw [mem_blk0_6]
  intro a
  match a with
  | ⟨0, _⟩ =>
    show win0_6.index ⟨(i 0).val / 400, hq⟩ (0 : Fin 2) * 400 ≤ (i 0).val
      ∧ (i 0).val < win0_6.index ⟨(i 0).val / 400, hq⟩ (0 : Fin 2) * 400 + 400
    have e0' : win0_6.index ⟨(i 0).val / 400, hq⟩ (0 : Fin 2) = (i 0).val / 400 := e0
    omega
  | ⟨1, _⟩ =>
    show win0_6.index ⟨(i 0).val / 400, hq⟩ (1 : Fin 2) * 32 ≤ (i 1).val
      ∧ (i 1).val < win0_6.index ⟨(i 0).val / 400, hq⟩ (1 : Fin 2) * 32 + 32
    omega

/-! ## The grid of 10 points: blocks of 1000 rows -/

/-- The index maps, decided over the grid: a whole-array window's block index is `(0, 0)` at every point, a row-block
    window's is `(t, 0)` at point `t`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = t.val ∧ win1_4.index t (1 : Fin 2) = 0 :=
  (by decide +kernel : ∀ t : Fin grid1.N, _)

/-- Row `p` of the block of point `t`, as a row of the array. -/
def row1 (t : Fin cfg1.N) (p : Fin 1000) : Fin 10000 :=
  ⟨t.val * 1000 + p.val, by have ht : t.val < 10 := t.isLt; have hp := p.isLt; omega⟩
theorem row1_val (t : Fin cfg1.N) (p : Fin 1000) : (row1 t p).val = t.val * 1000 + p.val := rfl
/-- Every row of the array is a row of some point's block: row `r` is row `r % 1000` of point `r / 1000`. -/
theorem row1_surj (r : Fin 10000) : ∃ (t : Fin cfg1.N) (p : Fin 1000), r = row1 t p := by
  have hr := r.isLt
  exact ⟨⟨r.val / 1000, by show r.val / 1000 < 10; omega⟩, ⟨r.val % 1000, by omega⟩,
    Fin.ext (by show r.val = r.val / 1000 * 1000 + r.val % 1000; omega)⟩
/-- The point and the row inside its block are determined by the array's row. -/
theorem row1_inj {t t' : Fin cfg1.N} {p p' : Fin 1000} (e : row1 t p = row1 t' p') : t = t' ∧ p = p' := by
  have e' : t.val * 1000 + p.val = t'.val * 1000 + p'.val := congrArg Fin.val e
  have hp := p.isLt; have hp' := p'.isLt
  exact ⟨Fin.ext (by omega), Fin.ext (by omega)⟩

/-! Where a block's element sits in its array. -/

/-- Window 0 holds, at point `t`, the `1000` rows from `t * 1000` of its array of `10000` columns. -/
theorem emb1_0 (t : Fin cfg1.N) (p : Fin 1000) (j : Fin 10000) :
    ((cfg1.win 0).blk t).view.emb (ix2 p j) = ix2 (row1 t p) j := by
  obtain ⟨e0, e1⟩ := idx1_0 t
  funext a; apply Fin.ext
  match a with
  | ⟨0, _⟩ => show win1_0.index t (0 : Fin 2) * 1000 + 1 * p.val = t.val * 1000 + p.val; omega
  | ⟨1, _⟩ => show win1_0.index t (1 : Fin 2) * 10000 + 1 * j.val = j.val; omega
/-- Window 1 holds its whole `10000 × 32` array at every point. -/
theorem emb1_1 (t : Fin cfg1.N) (r : Fin 10000) (k : Fin 32) :
    ((cfg1.win 1).blk t).view.emb (ix2 r k) = ix2 r k := by
  obtain ⟨e0, e1⟩ := idx1_1 t
  funext a; apply Fin.ext
  match a with
  | ⟨0, _⟩ => show win1_1.index t (0 : Fin 2) * 10000 + 1 * r.val = r.val; omega
  | ⟨1, _⟩ => show win1_1.index t (1 : Fin 2) * 32 + 1 * k.val = k.val; omega
/-- Window 2 holds its whole `1 × 32` array at every point. -/
theorem emb1_2 (t : Fin cfg1.N) (r : Fin 1) (k : Fin 32) :
    ((cfg1.win 2).blk t).view.emb (ix2 r k) = ix2 r k := by
  obtain ⟨e0, e1⟩ := idx1_2 t
  funext a; apply Fin.ext
  match a with
  | ⟨0, _⟩ => show win1_2.index t (0 : Fin 2) * 1 + 1 * r.val = r.val; omega
  | ⟨1, _⟩ => show win1_2.index t (1 : Fin 2) * 32 + 1 * k.val = k.val; omega
/-- Window 3 holds its whole `32 × 16` array at every point. -/
theorem emb1_3 (t : Fin cfg1.N) (r : Fin 32) (k : Fin 16) :
    ((cfg1.win 3).blk t).view.emb (ix2 r k) = ix2 r k := by
  obtain ⟨e0, e1⟩ := idx1_3 t
  funext a; apply Fin.ext
  match a with
  | ⟨0, _⟩ => show win1_3.index t (0 : Fin 2) * 32 + 1 * r.val = r.val; omega
  | ⟨1, _⟩ => show win1_3.index t (1 : Fin 2) * 16 + 1 * k.val = k.val; omega
/-- Window 4 holds, at point `t`, the `1000` rows from `t * 1000` of its array of `16` columns. -/
theorem emb1_4 (t : Fin cfg1.N) (p : Fin 1000) (j : Fin 16) :
    ((cfg1.win 4).blk t).view.emb (ix2 p j) = ix2 (row1 t p) j := by
  obtain ⟨e0, e1⟩ := idx1_4 t
  funext a; apply Fin.ext
  match a with
  | ⟨0, _⟩ => show win1_4.index t (0 : Fin 2) * 1000 + 1 * p.val = t.val * 1000 + p.val; omega
  | ⟨1, _⟩ => show win1_4.index t (1 : Fin 2) * 16 + 1 * j.val = j.val; omega

/-! The written windows' blocks cover their arrays. -/

/-- An index of the array is in point `t`'s block of window 4 iff each coordinate is in the block's range on its axis. -/
theorem mem_blk1_4 (t : Fin cfg1.N) (i : S10000x16.Idx) :
    i ∈ ((cfg1.win 4).blk t).view.set ↔ ∀ a : Fin 2, win1_4.index t a * S1000x16.size a ≤ (i a).val
      ∧ (i a).val < win1_4.index t a * S1000x16.size a + S1000x16.size a := by
  show i ∈ ((View.whole main_v3).slice (win1_4.rect t)).set ↔ _
  rw [View.set_slice_whole, Rect.mem_set_unit]
  exact Iff.rfl

/-- Every index of window 4's array is in the block of a point that writes it back: row `r` in that of point `r / 1000`. -/
theorem cover1_4 : ∀ i : S10000x16.Idx, ∃ t : Fin cfg1.N, (cfg1.win 4).flush t = true ∧ i ∈ ((cfg1.win 4).blk t).view.set := by
  intro i
  have hi0 : (i 0).val < 10000 := (i 0).isLt
  have hi1 : (i 1).val < 16 := (i 1).isLt
  have hq : (i 0).val / 1000 < 10 := by omega
  obtain ⟨e0, e1⟩ := idx1_4 ⟨(i 0).val / 1000, hq⟩
  refine ⟨⟨(i 0).val / 1000, hq⟩, flush1_4 _, ?_⟩
  rw [mem_blk1_4]
  intro a
  match a with
  | ⟨0, _⟩ =>
    show win1_4.index ⟨(i 0).val / 1000, hq⟩ (0 : Fin 2) * 1000 ≤ (i 0).val
      ∧ (i 0).val < win1_4.index ⟨(i 0).val / 1000, hq⟩ (0 : Fin 2) * 1000 + 1000
    have e0' : win1_4.index ⟨(i 0).val / 1000, hq⟩ (0 : Fin 2) = (i 0).val / 1000 := e0
    omega
  | ⟨1, _⟩ =>
    show win1_4.index ⟨(i 0).val / 1000, hq⟩ (1 : Fin 2) * 16 ≤ (i 1).val
      ∧ (i 1).val < win1_4.index ⟨(i 0).val / 1000, hq⟩ (1 : Fin 2) * 16 + 16
    omega

/-! ## The grid of 10 points: blocks of 1000 rows -/

/-- The index maps, decided over the grid: a whole-array window's block index is `(0, 0)` at every point, a row-block
    window's is `(t, 0)` at point `t`. -/
theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = t.val ∧ win2_3.index t (1 : Fin 2) = 0 :=
  (by decide +kernel : ∀ t : Fin grid2.N, _)

/-- Row `p` of the block of point `t`, as a row of the array. -/
def row2 (t : Fin cfg2.N) (p : Fin 1000) : Fin 10000 :=
  ⟨t.val * 1000 + p.val, by have ht : t.val < 10 := t.isLt; have hp := p.isLt; omega⟩
theorem row2_val (t : Fin cfg2.N) (p : Fin 1000) : (row2 t p).val = t.val * 1000 + p.val := rfl
/-- Every row of the array is a row of some point's block: row `r` is row `r % 1000` of point `r / 1000`. -/
theorem row2_surj (r : Fin 10000) : ∃ (t : Fin cfg2.N) (p : Fin 1000), r = row2 t p := by
  have hr := r.isLt
  exact ⟨⟨r.val / 1000, by show r.val / 1000 < 10; omega⟩, ⟨r.val % 1000, by omega⟩,
    Fin.ext (by show r.val = r.val / 1000 * 1000 + r.val % 1000; omega)⟩
/-- The point and the row inside its block are determined by the array's row. -/
theorem row2_inj {t t' : Fin cfg2.N} {p p' : Fin 1000} (e : row2 t p = row2 t' p') : t = t' ∧ p = p' := by
  have e' : t.val * 1000 + p.val = t'.val * 1000 + p'.val := congrArg Fin.val e
  have hp := p.isLt; have hp' := p'.isLt
  exact ⟨Fin.ext (by omega), Fin.ext (by omega)⟩

/-! Where a block's element sits in its array. -/

/-- Window 0 holds, at point `t`, the `1000` rows from `t * 1000` of its array of `10000` columns. -/
theorem emb2_0 (t : Fin cfg2.N) (p : Fin 1000) (j : Fin 10000) :
    ((cfg2.win 0).blk t).view.emb (ix2 p j) = ix2 (row2 t p) j := by
  obtain ⟨e0, e1⟩ := idx2_0 t
  funext a; apply Fin.ext
  match a with
  | ⟨0, _⟩ => show win2_0.index t (0 : Fin 2) * 1000 + 1 * p.val = t.val * 1000 + p.val; omega
  | ⟨1, _⟩ => show win2_0.index t (1 : Fin 2) * 10000 + 1 * j.val = j.val; omega
/-- Window 1 holds its whole `10000 × 16` array at every point. -/
theorem emb2_1 (t : Fin cfg2.N) (r : Fin 10000) (k : Fin 16) :
    ((cfg2.win 1).blk t).view.emb (ix2 r k) = ix2 r k := by
  obtain ⟨e0, e1⟩ := idx2_1 t
  funext a; apply Fin.ext
  match a with
  | ⟨0, _⟩ => show win2_1.index t (0 : Fin 2) * 10000 + 1 * r.val = r.val; omega
  | ⟨1, _⟩ => show win2_1.index t (1 : Fin 2) * 16 + 1 * k.val = k.val; omega
/-- Window 2 holds its whole `1 × 16` array at every point. -/
theorem emb2_2 (t : Fin cfg2.N) (r : Fin 1) (k : Fin 16) :
    ((cfg2.win 2).blk t).view.emb (ix2 r k) = ix2 r k := by
  obtain ⟨e0, e1⟩ := idx2_2 t
  funext a; apply Fin.ext
  match a with
  | ⟨0, _⟩ => show win2_2.index t (0 : Fin 2) * 1 + 1 * r.val = r.val; omega
  | ⟨1, _⟩ => show win2_2.index t (1 : Fin 2) * 16 + 1 * k.val = k.val; omega
/-- Window 3 holds, at point `t`, the `1000` rows from `t * 1000` of its array of `16` columns. -/
theorem emb2_3 (t : Fin cfg2.N) (p : Fin 1000) (j : Fin 16) :
    ((cfg2.win 3).blk t).view.emb (ix2 p j) = ix2 (row2 t p) j := by
  obtain ⟨e0, e1⟩ := idx2_3 t
  funext a; apply Fin.ext
  match a with
  | ⟨0, _⟩ => show win2_3.index t (0 : Fin 2) * 1000 + 1 * p.val = t.val * 1000 + p.val; omega
  | ⟨1, _⟩ => show win2_3.index t (1 : Fin 2) * 16 + 1 * j.val = j.val; omega

/-! The written windows' blocks cover their arrays. -/

/-- An index of the array is in point `t`'s block of window 3 iff each coordinate is in the block's range on its axis. -/
theorem mem_blk2_3 (t : Fin cfg2.N) (i : S10000x16.Idx) :
    i ∈ ((cfg2.win 3).blk t).view.set ↔ ∀ a : Fin 2, win2_3.index t a * S1000x16.size a ≤ (i a).val
      ∧ (i a).val < win2_3.index t a * S1000x16.size a + S1000x16.size a := by
  show i ∈ ((View.whole main_v5).slice (win2_3.rect t)).set ↔ _
  rw [View.set_slice_whole, Rect.mem_set_unit]
  exact Iff.rfl

/-- Every index of window 3's array is in the block of a point that writes it back: row `r` in that of point `r / 1000`. -/
theorem cover2_3 : ∀ i : S10000x16.Idx, ∃ t : Fin cfg2.N, (cfg2.win 3).flush t = true ∧ i ∈ ((cfg2.win 3).blk t).view.set := by
  intro i
  have hi0 : (i 0).val < 10000 := (i 0).isLt
  have hi1 : (i 1).val < 16 := (i 1).isLt
  have hq : (i 0).val / 1000 < 10 := by omega
  obtain ⟨e0, e1⟩ := idx2_3 ⟨(i 0).val / 1000, hq⟩
  refine ⟨⟨(i 0).val / 1000, hq⟩, flush2_3 _, ?_⟩
  rw [mem_blk2_3]
  intro a
  match a with
  | ⟨0, _⟩ =>
    show win2_3.index ⟨(i 0).val / 1000, hq⟩ (0 : Fin 2) * 1000 ≤ (i 0).val
      ∧ (i 0).val < win2_3.index ⟨(i 0).val / 1000, hq⟩ (0 : Fin 2) * 1000 + 1000
    have e0' : win2_3.index ⟨(i 0).val / 1000, hq⟩ (0 : Fin 2) = (i 0).val / 1000 := e0
    omega
  | ⟨1, _⟩ =>
    show win2_3.index ⟨(i 0).val / 1000, hq⟩ (1 : Fin 2) * 16 ≤ (i 1).val
      ∧ (i 1).val < win2_3.index ⟨(i 0).val / 1000, hq⟩ (1 : Fin 2) * 16 + 16
    omega

end Cert.Blocks

end
-- ==== Proof.SpecArr.lean ====
/-
  The specification's network as ONE array over the raw index set of the result: entry `i` is the network's value at
  the two coordinates of `i`, the inputs being read at the indices built from their coordinates.
-/
import proofs.«141298_g11441792876995_week1_w4_521_5_alg».proof.Proof.Spec
import Idealize.ShloMosaic.Lib.ValueIdx

noncomputable section

namespace Cert.Gcn

open Idealize.ShloMosaic Idealize.ShloMosaic.ValueIdx

/-- The whole network as an array: the value at the index `i` is `out` at the row `i 0` and the class `i 1`. -/
def outArr (x0 : (⟨2, ![10000, 128]⟩ : Shape).Idx → EReal) (x1 : (⟨2, ![10000, 10000]⟩ : Shape).Idx → EReal)
    (x2 : (⟨2, ![128, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 16]⟩ : Shape).Idx → EReal) (x7 : (⟨1, ![16]⟩ : Shape).Idx → EReal) :
    (⟨2, ![10000, 16]⟩ : Shape).Idx → EReal :=
  fun i => Cert.Gcn.out (fun r k => x0 (ix2 r k)) (fun r j => x1 (ix2 r j)) (fun k c => x2 (ix2 k c)) (fun k => x3 (ix1 k))
    (fun k c => x4 (ix2 k c)) (fun k => x5 (ix1 k)) (fun k c => x6 (ix2 k c)) (fun k => x7 (ix1 k)) (i 0) (i 1)

/-- At the index with coordinates `(r, c)` the array is the network at `(r, c)`. -/
theorem outArr_apply (x0 : (⟨2, ![10000, 128]⟩ : Shape).Idx → EReal) (x1 : (⟨2, ![10000, 10000]⟩ : Shape).Idx → EReal)
    (x2 : (⟨2, ![128, 32]⟩ : Shape).Idx → EReal) (x3 : (⟨1, ![32]⟩ : Shape).Idx → EReal)
    (x4 : (⟨2, ![32, 32]⟩ : Shape).Idx → EReal) (x5 : (⟨1, ![32]⟩ : Shape).Idx → EReal)
    (x6 : (⟨2, ![32, 16]⟩ : Shape).Idx → EReal) (x7 : (⟨1, ![16]⟩ : Shape).Idx → EReal) (r : Fin 10000) (c : Fin 16) :
    outArr x0 x1 x2 x3 x4 x5 x6 x7 (ix2 r c)
      = Cert.Gcn.out (fun r k => x0 (ix2 r k)) (fun r j => x1 (ix2 r j)) (fun k c => x2 (ix2 k c)) (fun k => x3 (ix1 k))
          (fun k c => x4 (ix2 k c)) (fun k => x5 (ix1 k)) (fun k c => x6 (ix2 k c)) (fun k => x7 (ix1 k)) r c := rfl

end Cert.Gcn

end
-- ==== Proof.KernelIdeal.Value.lean ====
import proofs.«141298_g11441792876995_week1_w4_521_5_alg».proof.Proof.KernelIdeal.Run
import proofs.«141298_g11441792876995_week1_w4_521_5_alg».proof.Proof.KPay
import proofs.«141298_g11441792876995_week1_w4_521_5_alg».proof.Proof.Blocks
import proofs.«141298_g11441792876995_week1_w4_521_5_alg».proof.Proof.SpecArr
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

/-
  What the idealized kernel computes, read on the extended reals index by index: its result array is the three-layer network
  of the argument arrays.

  The arrays between the regions are followed one at a time. The first region copies the adjacency (a change of format is
  the identity here) and writes the second layer's features of every 400-row block; a block's rows are rows
  `400 t + p` of the whole arrays, and its value is the layer's value of the adjacency's row block, the scratch's
  product of the features with the first weights, the bias row and the second weights — which is the layer's value at row
  `400 t + p`, since every sum runs over a whole axis. The blocks cover the array, so the array is the layer. The second
  and third regions likewise, over 1000-row blocks; the third ends in the row-wise log-softmax.
-/
namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

open Cert.Gcn Cert.Blocks

/-! ## The argument arrays by coordinates -/

abbrev aX : Fin 10000 → Fin 128 → EReal := fun r k => (m ((c : Thread nD τ).loc main_arg0)) (ix2 r k)
abbrev aA : Fin 10000 → Fin 10000 → EReal := fun r j => (m ((c : Thread nD τ).loc main_arg1)) (ix2 r j)
abbrev aW1 : Fin 128 → Fin 32 → EReal := fun k q => (m ((c : Thread nD τ).loc main_arg2)) (ix2 k q)
abbrev ab1 : Fin 32 → EReal := fun k => (m ((c : Thread nD τ).loc main_arg3)) (ix1 k)
abbrev aW2 : Fin 32 → Fin 32 → EReal := fun k q => (m ((c : Thread nD τ).loc main_arg4)) (ix2 k q)
abbrev ab2 : Fin 32 → EReal := fun k => (m ((c : Thread nD τ).loc main_arg5)) (ix1 k)
abbrev aW3 : Fin 32 → Fin 16 → EReal := fun k q => (m ((c : Thread nD τ).loc main_arg6)) (ix2 k q)
abbrev ab3 : Fin 16 → EReal := fun k => (m ((c : Thread nD τ).loc main_arg7)) (ix1 k)

/-- The first layer's features of every node, and the second layer's. -/
abbrev aZ1 : Fin 10000 → Fin 32 → EReal := Gcn.feat (aX m c) (aW1 m c)
abbrev aZ2 : Fin 10000 → Fin 32 → EReal := Gcn.hidden (aA m c) (aZ1 m c) (ab1 m c) (aW2 m c)
abbrev aZ3 : Fin 10000 → Fin 16 → EReal := Gcn.hidden (aA m c) (aZ2 m c) (ab2 m c) (aW3 m c)

/-! ## The first region: its operands as it finds them -/

theorem W1_arg (a : Ref sig .tc) (h : a ∉ (hostOps0_W : List (Ref sig .tc))) : W1 m ρ c (Proc.devRef .tc a) = m ((c : Thread nD τ).loc a) :=
  (StableHlo.after_of_writes_sub hostOps0 _ hostOps0_writes h).trans rfl

theorem V1_v0 (k : Fin 32) : V1 m ρ c main_v0 (ix2 (0 : Fin 1) k) = ab1 m c k := by
  show StableHlo.after hostOps0 (W0 m ρ c) (Proc.devRef .tc main_v0) (ix2 (0 : Fin 1) k) = _
  after_results
  exact shapeCast_a_1a_apply _ _ (0 : Fin 1) k

theorem iblk0_0 (t : Fin cfg0.N) (r : Fin 10000) (k : Fin 128) : iblk0 (V1 m ρ) c 0 t (ix2 r k) = aX m c r k := by
  unfold iblk0; rw [View.read_apply, emb0_0]; exact congrFun (W1_arg m ρ c main_arg0 (by decide)) _
theorem iblk0_1 (t : Fin cfg0.N) (k : Fin 128) (q : Fin 32) : iblk0 (V1 m ρ) c 1 t (ix2 k q) = aW1 m c k q := by
  unfold iblk0; rw [View.read_apply, emb0_1]; exact congrFun (W1_arg m ρ c main_arg2 (by decide)) _
theorem iblk0_2 (t : Fin cfg0.N) (p : Fin 400) (j : Fin 10000) : iblk0 (V1 m ρ) c 2 t (ix2 p j) = aA m c (row0 t p) j := by
  unfold iblk0; rw [View.read_apply, emb0_2]; exact congrFun (W1_arg m ρ c main_arg1 (by decide)) _
theorem iblk0_3 (t : Fin cfg0.N) (k : Fin 32) : iblk0 (V1 m ρ) c 3 t (ix2 (0 : Fin 1) k) = ab1 m c k := by
  unfold iblk0; rw [View.read_apply, emb0_3]; exact V1_v0 m ρ c k
theorem iblk0_4 (t : Fin cfg0.N) (k : Fin 32) (q : Fin 32) : iblk0 (V1 m ρ) c 4 t (ix2 k q) = aW2 m c k q := by
  unfold iblk0; rw [View.read_apply, emb0_4]; exact congrFun (W1_arg m ρ c main_arg4 (by decide)) _

/-- The scratch from the first point on: the first layer's features. -/
theorem Z0_apply (r : Fin 10000) (k : Fin 32) : Z0 (V1 m ρ) c (ix2 r k) = aZ1 m c r k := by
  unfold Z0
  refine (Cert.KPay.pay1 _ _ r k).trans ?_
  simp only [iblk0_0, iblk0_1]

/-! ## The first region: its two output arrays -/

/-- The adjacency's copy is the adjacency. -/
abbrev G5 : Buf (Elt Ideal) ((c : Thread nD τ).loc main_v1_0) := fun i => (m ((c : Thread nD τ).loc main_arg1)) i
/-- The second layer's features. -/
abbrev G6 : Buf (Elt Ideal) ((c : Thread nD τ).loc main_v1_1) := fun i => aZ2 m c (i 0) (i 1)

theorem flushed0_5 (t : Fin cfg0.N) :
    (dat0 (V1 m ρ) c).flushed 5 t = ((cfg0.win 5).blk t).view.read (Elt Ideal) (G5 m c) := by
  show (cfg0.win 5).cut (grid0.coords t) ((dat0 (V1 m ρ) c).after 5 t) = _
  rw [after0_5]
  funext j
  obtain ⟨p, q, rfl⟩ : ∃ (p : Fin 400) (q : Fin 10000), j = ix2 p q := ⟨j 0, j 1, eq_ix2 j⟩
  rw [View.read_apply, emb0_5]
  exact (Cert.KPay.pay2 _ p q).trans (iblk0_2 m ρ c t p q)

theorem final0_5 : (dat0 (V1 m ρ) c).arrAt 5 cfg0.N = G5 m c :=
  (dat0 (V1 m ρ) c).arrAt_eq_of_cover 5 _ (fun t _ => flushed0_5 m ρ c t) cover0_5

theorem flushed0_6 (t : Fin cfg0.N) :
    (dat0 (V1 m ρ) c).flushed 6 t = ((cfg0.win 6).blk t).view.read (Elt Ideal) (G6 m c) := by
  show (cfg0.win 6).cut (grid0.coords t) ((dat0 (V1 m ρ) c).after 6 t) = _
  rw [after0_6]
  funext j
  obtain ⟨p, q, rfl⟩ : ∃ (p : Fin 400) (q : Fin 32), j = ix2 p q := ⟨j 0, j 1, eq_ix2 j⟩
  rw [View.read_apply, emb0_6]
  refine (Cert.KPay.pay3 _ _ _ _ p q).trans ?_
  simp only [iblk0_2, iblk0_3, iblk0_4, Z0_apply]
  rfl

theorem final0_6 : (dat0 (V1 m ρ) c).arrAt 6 cfg0.N = G6 m c :=
  (dat0 (V1 m ρ) c).arrAt_eq_of_cover 6 _ (fun t _ => flushed0_6 m ρ c t) cover0_6

/-! ## The second region -/

theorem W2_arg (a : Ref sig .tc) (h0 : ∀ w, Pipeline.arrRef spec0 w ≠ a) (h : a ∉ (hostOps0_W : List (Ref sig .tc))) :
    W2 m ρ c (Proc.devRef .tc a) = m ((c : Thread nD τ).loc a) :=
  (W2_of_ne m ρ c a h0).trans (W1_arg m ρ c a h)

theorem V3_v1_0 : V3 m ρ c main_v1_0 = G5 m c :=
  (StableHlo.after_of_writes_sub hostOps1 _ hostOps1_writes (by decide)).trans ((W2_arr m ρ c 5).trans (final0_5 m ρ c))
theorem V3_v1_1 : V3 m ρ c main_v1_1 = G6 m c :=
  (StableHlo.after_of_writes_sub hostOps1 _ hostOps1_writes (by decide)).trans ((W2_arr m ρ c 6).trans (final0_6 m ρ c))
theorem V3_arg6 : V3 m ρ c main_arg6 = m ((c : Thread nD τ).loc main_arg6) :=
  (StableHlo.after_of_writes_sub hostOps1 _ hostOps1_writes (by decide)).trans (W2_arg m ρ c main_arg6 (by decide) (by decide))
theorem V3_v2 (k : Fin 32) : V3 m ρ c main_v2 (ix2 (0 : Fin 1) k) = ab2 m c k := by
  show StableHlo.after hostOps1 (W2 m ρ c) (Proc.devRef .tc main_v2) (ix2 (0 : Fin 1) k) = _
  after_results
  refine (shapeCast_a_1a_apply _ _ (0 : Fin 1) k).trans ?_
  exact congrFun (W2_arg m ρ c main_arg5 (by decide) (by decide)) _

theorem iblk1_0 (t : Fin cfg1.N) (p : Fin 1000) (j : Fin 10000) : iblk1 (V3 m ρ) c 0 t (ix2 p j) = aA m c (row1 t p) j := by
  unfold iblk1; rw [View.read_apply, emb1_0]; exact congrFun (V3_v1_0 m ρ c) _
theorem iblk1_1 (t : Fin cfg1.N) (r : Fin 10000) (k : Fin 32) : iblk1 (V3 m ρ) c 1 t (ix2 r k) = aZ2 m c r k := by
  unfold iblk1; rw [View.read_apply, emb1_1]; exact congrFun (V3_v1_1 m ρ c) _
theorem iblk1_2 (t : Fin cfg1.N) (k : Fin 32) : iblk1 (V3 m ρ) c 2 t (ix2 (0 : Fin 1) k) = ab2 m c k := by
  unfold iblk1; rw [View.read_apply, emb1_2]; exact V3_v2 m ρ c k
theorem iblk1_3 (t : Fin cfg1.N) (k : Fin 32) (q : Fin 16) : iblk1 (V3 m ρ) c 3 t (ix2 k q) = aW3 m c k q := by
  unfold iblk1; rw [View.read_apply, emb1_3]; exact congrFun (V3_arg6 m ρ c) _

/-- The third layer's features. -/
abbrev G14 : Buf (Elt Ideal) ((c : Thread nD τ).loc main_v3) := fun i => aZ3 m c (i 0) (i 1)

theorem flushed1_4 (t : Fin cfg1.N) :
    (dat1 (V3 m ρ) c).flushed 4 t = ((cfg1.win 4).blk t).view.read (Elt Ideal) (G14 m c) := by
  show (cfg1.win 4).cut (grid1.coords t) ((dat1 (V3 m ρ) c).after 4 t) = _
  rw [after1_4]
  funext j
  obtain ⟨p, q, rfl⟩ : ∃ (p : Fin 1000) (q : Fin 16), j = ix2 p q := ⟨j 0, j 1, eq_ix2 j⟩
  rw [View.read_apply, emb1_4]
  refine (Cert.KPay.pay4 _ _ _ _ p q).trans ?_
  simp only [iblk1_0, iblk1_1, iblk1_2, iblk1_3]
  rfl

theorem final1_4 : (dat1 (V3 m ρ) c).arrAt 4 cfg1.N = G14 m c :=
  (dat1 (V3 m ρ) c).arrAt_eq_of_cover 4 _ (fun t _ => flushed1_4 m ρ c t) cover1_4

/-! ## The last region -/

theorem V5_v1_0 : V5 m ρ c main_v1_0 = G5 m c :=
  (StableHlo.after_of_writes_sub hostOps2 _ hostOps2_writes (by decide)).trans
    ((W4_arr m ρ c 0).trans (((dat1 (V3 m ρ) c).arrAt_in 0 rfl _).trans ((A_eq1 (V3 m ρ) c 0).trans (V3_v1_0 m ρ c))))
theorem V5_v3 : V5 m ρ c main_v3 = G14 m c :=
  (StableHlo.after_of_writes_sub hostOps2 _ hostOps2_writes (by decide)).trans ((W4_arr m ρ c 4).trans (final1_4 m ρ c))
theorem V5_v4 (k : Fin 16) : V5 m ρ c main_v4 (ix2 (0 : Fin 1) k) = ab3 m c k := by
  show StableHlo.after hostOps2 (W4 m ρ c) (Proc.devRef .tc main_v4) (ix2 (0 : Fin 1) k) = _
  after_results
  refine (shapeCast_a_1a_apply _ _ (0 : Fin 1) k).trans ?_
  exact congrFun ((W4_of_ne m ρ c main_arg7 (by decide)).trans ((StableHlo.after_of_writes_sub hostOps1 _ hostOps1_writes (by decide)).trans
    (W2_arg m ρ c main_arg7 (by decide) (by decide)))) _

theorem iblk2_0 (t : Fin cfg2.N) (p : Fin 1000) (j : Fin 10000) : iblk2 (V5 m ρ) c 0 t (ix2 p j) = aA m c (row2 t p) j := by
  unfold iblk2; rw [View.read_apply, emb2_0]; exact congrFun (V5_v1_0 m ρ c) _
theorem iblk2_1 (t : Fin cfg2.N) (r : Fin 10000) (k : Fin 16) : iblk2 (V5 m ρ) c 1 t (ix2 r k) = aZ3 m c r k := by
  unfold iblk2; rw [View.read_apply, emb2_1]; exact congrFun (V5_v3 m ρ c) _
theorem iblk2_2 (t : Fin cfg2.N) (k : Fin 16) : iblk2 (V5 m ρ) c 2 t (ix2 (0 : Fin 1) k) = ab3 m c k := by
  unfold iblk2; rw [View.read_apply, emb2_2]; exact V5_v4 m ρ c k

/-- The whole network of the argument arrays. -/
abbrev Gout : Buf (Elt Ideal) ((c : Thread nD τ).loc main_v5) :=
  Gcn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem flushed2_3 (t : Fin cfg2.N) :
    (dat2 (V5 m ρ) c).flushed 3 t = ((cfg2.win 3).blk t).view.read (Elt Ideal) (Gout m c) := by
  show (cfg2.win 3).cut (grid2.coords t) ((dat2 (V5 m ρ) c).after 3 t) = _
  rw [after2_3]
  funext j
  obtain ⟨p, q, rfl⟩ : ∃ (p : Fin 1000) (q : Fin 16), j = ix2 p q := ⟨j 0, j 1, eq_ix2 j⟩
  rw [View.read_apply, emb2_3]
  refine (Cert.KPay.pay5 _ _ _ p q).trans ?_
  simp only [iblk2_0, iblk2_1, iblk2_2]
  rfl

theorem final2_3 : (dat2 (V5 m ρ) c).arrAt 3 cfg2.N = Gout m c :=
  (dat2 (V5 m ρ) c).arrAt_eq_of_cover 3 _ (fun t _ => flushed2_3 m ρ c t) cover2_3

end Cert.KernelIdeal.Val

namespace Cert.KernelIdeal.Val

open Cert.KernelIdeal Cert.KernelIdeal.Gen Cert.KernelIdeal.Hand
open Idealize.ShloMosaic Idealize.ShloMosaic.TcCoe Idealize.SL.Sem

/-- THE KERNEL'S RUN at the exact instance: the result array ends at the network of the argument arrays, which end as
    launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.Gcn.outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v5 (by decide))).trans ((W6_arr m ρ c 3).trans (final2_3 m ρ c)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩) (run_all m ρ)

end Cert.KernelIdeal.Val

end
-- ==== Proof.RefSpec.lean ====
/-
  The reference program read at an index, at the exact real-number instance, is the three-layer graph convolution of
  the specification: each matrix product is the sum over its contracted axis, each bias is added along the rows, the
  clamps are maxima with zero, and the final stage is the row-wise log-softmax (row maximum folded from minus infinity,
  which a further maximum with minus infinity leaves unchanged; the row sum of exponentials started from zero).
-/
import proofs.«141298_g11441792876995_week1_w4_521_5_alg».proof.Proof.RefRead
import proofs.«141298_g11441792876995_week1_w4_521_5_alg».proof.Proof.Spec

noncomputable section

namespace Cert.RefSpec

open Cert.ReferenceIdeal Cert.ReferenceIdeal.Read Idealize.ShloMosaic ValueIdx Cert.Gcn

variable (x0 : (⟨S10000x128, .f32⟩ : BufTy).Contents (Elt Ideal)) (x1 : (⟨S10000x10000, .f32⟩ : BufTy).Contents (Elt Ideal))
  (x2 : (⟨S128x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x16, .f32⟩ : BufTy).Contents (Elt Ideal)) (x7 : (⟨S16, .f32⟩ : BufTy).Contents (Elt Ideal))

/-- The inputs as functions of their coordinates. -/
local notation "iX" => (fun (r : Fin 10000) (k : Fin 128) => x0 (ix2 r k))
local notation "iA" => (fun (r : Fin 10000) (j : Fin 10000) => x1 (ix2 r j))
local notation "iW1" => (fun (k : Fin 128) (c : Fin 32) => x2 (ix2 k c))
local notation "iB1" => (fun (k : Fin 32) => x3 (ix1 k))
local notation "iW2" => (fun (k : Fin 32) (c : Fin 32) => x4 (ix2 k c))
local notation "iB2" => (fun (k : Fin 32) => x5 (ix1 k))
local notation "iW3" => (fun (k : Fin 32) (c : Fin 16) => x6 (ix2 k c))
local notation "iB3" => (fun (k : Fin 16) => x7 (ix1 k))

/-- Two rank-2 indices with the same coordinates are equal; the coordinates of the composed index functions compute. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## Layer one -/

/-- The first product: features times the first weight matrix. -/
theorem v0_eq (r : Fin 10000) (c : Fin 32) :
    val_main_v0 (F := Ideal) x0 x2 (ix2 r c) = feat iX iW1 r c := by
  rw [val_main_v0_apply]
  unfold feat
  refine Finset.sum_congr rfl fun k _ => ?_
  have e1 : lidx_main_v0 (ix2 r c) k = ix2 r k := by idx2
  have e2 : ridx_main_v0 (ix2 r c) k = ix2 k c := by idx2
  rw [e1, e2]

/-- The first bias, broadcast down the rows. -/
theorem v3_eq (r : Fin 10000) (c : Fin 32) : val_main_v3 (F := Ideal) x3 (ix2 r c) = x3 (ix1 c) := by
  rw [val_main_v3_apply, val_main_v2_apply]
  exact congrArg x3 (by idx1)

/-- The zero the first clamp compares with. -/
theorem call0_v0_eq (i : S10000x32.Idx) : val_main_call0_v0 (F := Ideal) i = Ideal.ofBits .f32 0x00000000#32 := by
  rw [val_main_call0_v0_apply, val_main_call0_cst_apply]; rfl

/-- The first aggregation, clamped. -/
theorem v5_eq (r : Fin 10000) (c : Fin 32) :
    val_main_v5 (F := Ideal) x0 x1 x2 x3 (ix2 r c) = relu (agg iA (feat iX iW1) iB1 r c) := by
  rw [val_main_v5_apply, val_main_v4_apply, val_main_v1_apply, v3_eq, call0_v0_eq]
  unfold relu agg
  refine congrArg (fun t => max (t + x3 (ix1 c)) (Ideal.ofBits .f32 0x00000000#32)) ?_
  refine Finset.sum_congr rfl fun k _ => ?_
  have e1 : lidx_main_v1 (ix2 r c) k = ix2 r k := by idx2
  have e2 : ridx_main_v1 (ix2 r c) k = ix2 k c := by idx2
  rw [e1, e2, v0_eq]

/-- The second product: the clamped first layer times the second weight matrix. -/
theorem v6_eq (r : Fin 10000) (c : Fin 32) :
    val_main_v6 (F := Ideal) x0 x1 x2 x3 x4 (ix2 r c) = Gcn.hidden iA (feat iX iW1) iB1 iW2 r c := by
  rw [val_main_v6_apply]
  unfold Gcn.hidden feat
  refine Finset.sum_congr rfl fun k _ => ?_
  have e1 : lidx_main_v6 (ix2 r c) k = ix2 r k := by idx2
  have e2 : ridx_main_v6 (ix2 r c) k = ix2 k c := by idx2
  rw [e1, e2, v5_eq]
  rfl

/-! ## Layer two -/

/-- The second bias, broadcast down the rows. -/
theorem v9_eq (r : Fin 10000) (c : Fin 32) : val_main_v9 (F := Ideal) x5 (ix2 r c) = x5 (ix1 c) := by
  rw [val_main_v9_apply, val_main_v8_apply]
  exact congrArg x5 (by idx1)

/-- The zero the second clamp compares with. -/
theorem call1_v0_eq (i : S10000x32.Idx) : val_main_call1_v0 (F := Ideal) i = Ideal.ofBits .f32 0x00000000#32 := by
  rw [val_main_call1_v0_apply, val_main_call1_cst_apply]; rfl

/-- The second aggregation, clamped. -/
theorem v11_eq (r : Fin 10000) (c : Fin 32) :
    val_main_v11 (F := Ideal) x0 x1 x2 x3 x4 x5 (ix2 r c)
      = relu (agg iA (Gcn.hidden iA (feat iX iW1) iB1 iW2) iB2 r c) := by
  rw [val_main_v11_apply, val_main_v10_apply, val_main_v7_apply, v9_eq, call1_v0_eq]
  unfold relu agg
  refine congrArg (fun t => max (t + x5 (ix1 c)) (Ideal.ofBits .f32 0x00000000#32)) ?_
  refine Finset.sum_congr rfl fun k _ => ?_
  have e1 : lidx_main_v7 (ix2 r c) k = ix2 r k := by idx2
  have e2 : ridx_main_v7 (ix2 r c) k = ix2 k c := by idx2
  rw [e1, e2, v6_eq]

/-- The third product: the clamped second layer times the third weight matrix. -/
theorem v12_eq (r : Fin 10000) (c : Fin 16) :
    val_main_v12 (F := Ideal) x0 x1 x2 x3 x4 x5 x6 (ix2 r c)
      = Gcn.hidden iA (Gcn.hidden iA (feat iX iW1) iB1 iW2) iB2 iW3 r c := by
  rw [val_main_v12_apply]
  unfold Gcn.hidden feat
  refine Finset.sum_congr rfl fun k _ => ?_
  have e1 : lidx_main_v12 (ix2 r c) k = ix2 r k := by idx2
  have e2 : ridx_main_v12 (ix2 r c) k = ix2 k c := by idx2
  rw [e1, e2, v11_eq]
  rfl

/-! ## Layer three -/

/-- The third bias, broadcast down the rows. -/
theorem v15_eq (r : Fin 10000) (c : Fin 16) : val_main_v15 (F := Ideal) x7 (ix2 r c) = x7 (ix1 c) := by
  rw [val_main_v15_apply, val_main_v14_apply]
  exact congrArg x7 (by idx1)

/-- The third aggregation: the rows the log-softmax is taken of. -/
theorem v16_eq (r : Fin 10000) (c : Fin 16) :
    val_main_v16 (F := Ideal) x0 x1 x2 x3 x4 x5 x6 x7 (ix2 r c)
      = agg iA (Gcn.hidden iA (Gcn.hidden iA (feat iX iW1) iB1 iW2) iB2 iW3) iB3 r c := by
  rw [val_main_v16_apply, val_main_v13_apply, v15_eq]
  unfold agg
  refine congrArg (fun t => t + x7 (ix1 c)) ?_
  refine Finset.sum_congr rfl fun k _ => ?_
  have e1 : lidx_main_v13 (ix2 r c) k = ix2 r k := by idx2
  have e2 : ridx_main_v13 (ix2 r c) k = ix2 k c := by idx2
  rw [e1, e2, v12_eq]

/-! ## The row-wise log-softmax -/

/-- A row index with the column `k` put back on the reduced axis is `(r, k)`. -/
theorem lift_row (h : S10000x16.Reduces [1] S10000) (r : Fin 10000) (k : Fin (S10000x16.size 1)) :
    h.lift (ix1 r) k = ix2 r (⟨k.val, k.isLt⟩ : Fin 16) := by
  funext c; apply Fin.ext
  match c with
  | ⟨0, _⟩ => rfl
  | ⟨1, _⟩ => rfl

/-- Minus infinity is the least extended real, so a maximum with it changes nothing. -/
theorem neginf_max (y : Ideal .f32) : max (Ideal.ofBits .f32 0xFF800000#32) y = y := by
  simp [Ideal.ofBits, Ideal.ieee]

/-- The row maximum, folded from minus infinity over the sixteen columns. -/
theorem call2_v0_eq (r : Fin 10000) :
    val_main_call2_v0 (F := Ideal) x0 x1 x2 x3 x4 x5 x6 x7 (ix1 r)
      = rowMax (fun k => agg iA (Gcn.hidden iA (Gcn.hidden iA (feat iX iW1) iB1 iW2) iB2 iW3) iB3 r k) := by
  have h : S10000x16.Reduces [1] S10000 := by decide
  unfold val_main_call2_v0
  refine (Host.reduce_eq_fold_single FloatOps.maximumf _ _ _ h _ (ix1 r)).trans ?_
  unfold rowMax
  have hf : (val_main_v16 (F := Ideal) x0 x1 x2 x3 x4 x5 x6 x7 ∘ h.lift (ix1 r))
      = fun k : Fin 16 => agg iA (Gcn.hidden iA (Gcn.hidden iA (feat iX iW1) iB1 iW2) iB2 iW3) iB3 r k :=
    funext fun k => by
      show val_main_v16 (F := Ideal) x0 x1 x2 x3 x4 x5 x6 x7 (h.lift (ix1 r) k) = _
      rw [lift_row, v16_eq]
      rfl
  exact congrArg (fun f => Finset.fold max (Ideal.ofBits .f32 0xFF800000#32) f (Finset.univ : Finset (Fin 16))) hf

/-- The further maximum with a row of minus infinities leaves the row maximum unchanged. -/
theorem call2_v2_eq (r : Fin 10000) :
    val_main_call2_v2 (F := Ideal) x0 x1 x2 x3 x4 x5 x6 x7 (ix1 r)
      = rowMax (fun k => agg iA (Gcn.hidden iA (Gcn.hidden iA (feat iX iW1) iB1 iW2) iB2 iW3) iB3 r k) := by
  rw [val_main_call2_v2_apply, val_main_call2_v1_apply, val_main_call2_cst_0_apply, call2_v0_eq]
  exact neginf_max _

/-- The row maximum, broadcast along its row. -/
theorem call2_v4_eq (r : Fin 10000) (c : Fin 16) :
    val_main_call2_v4 (F := Ideal) x0 x1 x2 x3 x4 x5 x6 x7 (ix2 r c)
      = rowMax (fun k => agg iA (Gcn.hidden iA (Gcn.hidden iA (feat iX iW1) iB1 iW2) iB2 iW3) iB3 r k) := by
  rw [val_main_call2_v4_apply, val_main_call2_v3_apply]
  have e : idx_main_call2_v3 (idx_main_call2_v4 (ix2 r c)) = ix1 r := by idx1
  rw [e, call2_v2_eq]

/-- The row minus its maximum. -/
theorem call2_v5_eq (r : Fin 10000) (c : Fin 16) :
    val_main_call2_v5 (F := Ideal) x0 x1 x2 x3 x4 x5 x6 x7 (ix2 r c)
      = agg iA (Gcn.hidden iA (Gcn.hidden iA (feat iX iW1) iB1 iW2) iB2 iW3) iB3 r c
        - rowMax (fun k => agg iA (Gcn.hidden iA (Gcn.hidden iA (feat iX iW1) iB1 iW2) iB2 iW3) iB3 r k) := by
  rw [val_main_call2_v5_apply, v16_eq, call2_v4_eq]
  rfl

/-- The sum over the row of the exponentials of the shifted entries; the sum starts from zero. -/
theorem call2_v7_eq (r : Fin 10000) :
    val_main_call2_v7 (F := Ideal) x0 x1 x2 x3 x4 x5 x6 x7 (ix1 r)
      = ∑ k : Fin 16, Ideal.exp (agg iA (Gcn.hidden iA (Gcn.hidden iA (feat iX iW1) iB1 iW2) iB2 iW3) iB3 r k
        - rowMax (fun k => agg iA (Gcn.hidden iA (Gcn.hidden iA (feat iX iW1) iB1 iW2) iB2 iW3) iB3 r k)) := by
  rw [val_main_call2_v7_apply, val_main_call2_cst_1_apply]
  refine Eq.trans (congrArg (· + _) Ideal.ofBits_zero_f32) ?_
  refine (zero_add _).trans ?_
  refine Finset.sum_congr rfl fun k _ => ?_
  have e : idx_main_call2_v7 (ix1 r) k = ix2 r k := by idx2
  rw [e, val_main_call2_v6_apply, call2_v5_eq]
  rfl

/-- The logarithm of that sum, broadcast along its row. -/
theorem call2_v10_eq (r : Fin 10000) (c : Fin 16) :
    val_main_call2_v10 (F := Ideal) x0 x1 x2 x3 x4 x5 x6 x7 (ix2 r c)
      = Ideal.log (∑ k : Fin 16, Ideal.exp (agg iA (Gcn.hidden iA (Gcn.hidden iA (feat iX iW1) iB1 iW2) iB2 iW3) iB3 r k
        - rowMax (fun k => agg iA (Gcn.hidden iA (Gcn.hidden iA (feat iX iW1) iB1 iW2) iB2 iW3) iB3 r k))) := by
  rw [val_main_call2_v10_apply, val_main_call2_v9_apply, val_main_call2_v8_apply]
  have e : idx_main_call2_v8 (idx_main_call2_v10 (ix2 r c)) = ix1 r := by idx1
  rw [e, call2_v7_eq]
  rfl

/-- The program's result is the network of the specification. -/
theorem v17_eq (r : Fin 10000) (c : Fin 16) :
    val_main_v17 (F := Ideal) x0 x1 x2 x3 x4 x5 x6 x7 (ix2 r c) = out iX iA iW1 iB1 iW2 iB2 iW3 iB3 r c := by
  rw [val_main_v17_apply, call2_v5_eq, call2_v10_eq]
  rfl

end Cert.RefSpec

namespace Cert.RefSpec

open Cert.ReferenceIdeal Cert.ReferenceIdeal.Read Idealize.ShloMosaic ValueIdx

/-- The reference program's result at `(r, c)`, at the exact instance, is the specification's network on the inputs
    read as functions of their coordinates. -/
theorem ref_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) (r : Fin 10000) (c : Fin 16) :
    val_main_v17 (F := Ideal) x0 x1 x2 x3 x4 x5 x6 x7 (ix2 r c)
      = Cert.Gcn.out (fun r k => x0 (ix2 r k)) (fun r j => x1 (ix2 r j)) (fun k c => x2 (ix2 k c)) (fun k => x3 (ix1 k)) (fun k c => x4 (ix2 k c)) (fun k => x5 (ix1 k)) (fun k c => x6 (ix2 k c)) (fun k => x7 (ix1 k)) r c :=
  v17_eq x0 x1 x2 x3 x4 x5 x6 x7 r c

end Cert.RefSpec

end
-- ==== Proof.RefFinal.lean ====
/-
  The reference program's run, with its result stated as the specification's network: every execution terminates
  with the result buffer holding the network's array of the launch contents of the eight arguments, and the
  arguments unchanged. The result's term is the composition of the program's operations; read at any index it is the
  network at that index's two coordinates, so the two arrays are equal.
-/
import proofs.«141298_g11441792876995_week1_w4_521_5_alg».proof.Proof.RefSpec
import proofs.«141298_g11441792876995_week1_w4_521_5_alg».proof.Proof.SpecArr
import proofs.«141298_g11441792876995_week1_w4_521_5_alg».proof.Defs
import proofs.«141298_g11441792876995_week1_w4_521_5_alg».proof.Proof.Gen.ReferenceIdeal
import proofs.«141298_g11441792876995_week1_w4_521_5_alg».proof.Proof.Gen.Pre_finite_inputs

noncomputable section

namespace Cert.RefFinal

open Cert.ReferenceIdeal Cert.ReferenceIdeal.Read Idealize.ShloMosaic Idealize.ShloMosaic.TcCoe Idealize.SL.Sem ValueIdx

/-- The program's composed result, as a whole array, is the network's array: the two agree at every index, an index
    being the pair of its coordinates. -/
theorem val_eq_outArr (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32, .f32⟩ : BufTy).Contents (Elt Ideal)) (x4 : (⟨S32x32, .f32⟩ : BufTy).Contents (Elt Ideal)) (x5 : (⟨S32, .f32⟩ : BufTy).Contents (Elt Ideal)) (x6 : (⟨S32x16, .f32⟩ : BufTy).Contents (Elt Ideal)) (x7 : (⟨S16, .f32⟩ : BufTy).Contents (Elt Ideal)) :
    val_main_v17 (F := Ideal) x0 x1 x2 x3 x4 x5 x6 x7 = Cert.Gcn.outArr x0 x1 x2 x3 x4 x5 x6 x7 :=
  funext fun i =>
    (congrArg (val_main_v17 (F := Ideal) x0 x1 x2 x3 x4 x5 x6 x7) (eq_ix2 i)).trans
      (Cert.RefSpec.ref_eq x0 x1 x2 x3 x4 x5 x6 x7 (i 0) (i 1))

/-- The reference's run: it terminates with the result buffer at the network's array of the arguments' launch
    contents, the arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v17) = Cert.Gcn.outArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono
    (fun _ h c => ⟨(h c).1.trans ((val_main_v17_eq m c).trans (val_eq_outArr _ _ _ _ _ _ _ _)), (h c).2⟩)
    (Cert.ReferenceIdeal.Value.run (F := Ideal) m ρ)

/-- The reference runs and leaves its arguments unchanged. -/
theorem frame_ref : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

end Cert.RefFinal

end
-- ==== Proof.lean ====
/-
  The certificate of a three-layer graph convolution with a dense adjacency: a Pallas kernel of three row-blocked calls
  against its plain reference, equal on the extended reals.

  Each layer is `relu (A · (H · W) + b)`, the last followed by a row-wise log-softmax. The kernel's first call computes
  the first layer's features `X · W1` once, at its first grid point, into a scratch buffer it keeps, and then, for every
  block of 400 rows of the adjacency, the second layer's features of those rows; it also writes the adjacency back in a
  narrower format, which the later calls read. The second and third calls do the same over blocks of 1000 rows, the third
  ending in the log-softmax. On the extended reals a change of format is the identity and every contraction runs over a
  whole axis in one sum, so block by block the kernel computes exactly the reference's entries: no reassociation, and no use
  of the inputs' finiteness.

  The frames (every execution terminates, nothing faults, the arguments end as launched) are proved once for any float
  instance — the three bodies as separation-logic triples, the first with the scratch's contents in its invariant, then the
  three regions chained through @main's host stretches — and read at the word-level instance for the printed kernel and at
  the exact instance for its idealization. The ideal pass rewrote nothing, so the idealization claim is trivial.
-/
import proofs.«141298_g11441792876995_week1_w4_521_5_alg».proof.Defs
import proofs.«141298_g11441792876995_week1_w4_521_5_alg».proof.Proof.Gen.Kernel
import proofs.«141298_g11441792876995_week1_w4_521_5_alg».proof.Proof.Gen.KernelIdeal
import proofs.«141298_g11441792876995_week1_w4_521_5_alg».proof.Proof.Gen.ReferenceIdeal
import proofs.«141298_g11441792876995_week1_w4_521_5_alg».proof.Proof.Gen.Pre_finite_inputs
import proofs.«141298_g11441792876995_week1_w4_521_5_alg».proof.Proof.Kernel.Run
import proofs.«141298_g11441792876995_week1_w4_521_5_alg».proof.Proof.KernelIdeal.Value
import proofs.«141298_g11441792876995_week1_w4_521_5_alg».proof.Proof.RefFinal

noncomputable section

namespace Cert.Proof

open Idealize.ShloMosaic Idealize.SL.Sem

/-- The printed kernel runs and leaves its arguments as launched: the run for any float instance, at the word level. -/
theorem frame_kernel : Cert.frame_Kernel (hKernel := Cert.Kernel.Gen.facts) (hPre_finite_inputs := Cert.Pre_finite_inputs.Gen.facts) :=
  fun m ρ _ => Cert.Kernel.Hand.frame m ρ

/-- The idealized kernel likewise, at the exact instance. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The ideal pass rewrote no operation. -/
theorem preserves : Cert.preserves_Kernel_KernelIdeal := trivial

/-- Both idealized programs end with the network of the argument arrays in their result: the kernel's run read through
    its three regions, the reference's run read one operation at a time, the arguments agreeing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Val.kernel_run m ρ, ?_⟩
  refine (θ_run Cert.ReferenceIdeal.defs _ _).mono (fun _ h c => ⟨(h c).1.trans ?_, (h c).2⟩) (Cert.RefFinal.ref_run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.RefFinal.frame_ref, preserves, algebraic⟩

end Cert.Proof

end
